-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x32x32 : Shape := ⟨4, ![8, 32, 32, 32]⟩
abbrev S1x1x1x288x64 : Shape := ⟨5, ![1, 1, 1, 288, 64]⟩
abbrev S64 : Shape := ⟨1, ![64]⟩
abbrev S_ : Shape := ⟨0, ![]⟩

class Facts : Prop where
  bcast_S_S8x32x32x32 : S_.BroadcastsInDim S8x32x32x32 (![] : Fin 0 → Fin S8x32x32x32.rank)
  reducesTo_S8x32x32x32_S_d0_1_2_3 : S8x32x32x32.ReducesTo [0, 1, 2, 3] S_
  h_S_ : 0 < S_.numel
  bcast_S_S1x1x1x288x64 : S_.BroadcastsInDim S1x1x1x288x64 (![] : Fin 0 → Fin S1x1x1x288x64.rank)
  reducesTo_S1x1x1x288x64_S_d0_1_2_3_4 : S1x1x1x288x64.ReducesTo [0, 1, 2, 3, 4] S_
  bcast_S_S64 : S_.BroadcastsInDim S64 (![] : Fin 0 → Fin S64.rank)
  reducesTo_S64_S_d0 : S64.ReducesTo [0] S_

variable [Facts]

def fn {F : FTy → Type} [FloatOps F] (main_arg0 : FVec F S8x32x32x32 .f32) (main_arg1 : FVec F S1x1x1x288x64 .f32) (main_arg2 : FVec F S64 .f32) : IVec S_ 1 :=
  let main_v0 : FVec F S8x32x32x32 .f32 := Host.absf main_arg0
  let main_cst : FVec F S_ .f32 := constant S_ .f32 0x7F800000#32
  let main_v1 : FVec F S8x32x32x32 .f32 := broadcastInDim S8x32x32x32 ![] bcast_S_S8x32x32x32 main_cst
  let main_v2 : IVec S8x32x32x32 1 := cmpf .olt main_v0 main_v1
  let main_c : IVec S_ 1 := constantI S_ 1 1#1
  let main_v3 : IVec S_ 1 := (fun x v => Host.reduce IntOp.andi x v reducesTo_S8x32x32x32_S_d0_1_2_3 h_S_) main_v2 main_c
  let main_v4 : FVec F S1x1x1x288x64 .f32 := Host.absf main_arg1
  let main_cst_0 : FVec F S_ .f32 := constant S_ .f32 0x7F800000#32
  let main_v5 : FVec F S1x1x1x288x64 .f32 := broadcastInDim S1x1x1x288x64 ![] bcast_S_S1x1x1x288x64 main_cst_0
  let main_v6 : IVec S1x1x1x288x64 1 := cmpf .olt main_v4 main_v5
  let main_c_1 : IVec S_ 1 := constantI S_ 1 1#1
  let main_v7 : IVec S_ 1 := (fun x v => Host.reduce IntOp.andi x v reducesTo_S1x1x1x288x64_S_d0_1_2_3_4 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S8x32x32x32 : Shape := ⟨4, ![8, 32, 32, 32]⟩
abbrev S1x1x1x288x64 : Shape := ⟨5, ![1, 1, 1, 288, 64]⟩
abbrev S64 : Shape := ⟨1, ![64]⟩
abbrev S8x30x30x32 : Shape := ⟨4, ![8, 30, 30, 32]⟩
abbrev S8x30x30x288 : Shape := ⟨4, ![8, 30, 30, 288]⟩
abbrev S7200x288 : Shape := ⟨2, ![7200, 288]⟩
abbrev S288x7200 : Shape := ⟨2, ![288, 7200]⟩
abbrev S288x64 : Shape := ⟨2, ![288, 64]⟩
abbrev S64x288 : Shape := ⟨2, ![64, 288]⟩
abbrev S64x1 : Shape := ⟨2, ![64, 1]⟩
abbrev S_ : Shape := ⟨0, ![]⟩
abbrev S288x7424 : Shape := ⟨2, ![288, 7424]⟩
abbrev S64x7424 : Shape := ⟨2, ![64, 7424]⟩
abbrev S288x128 : Shape := ⟨2, ![288, 128]⟩
abbrev S64x128 : Shape := ⟨2, ![64, 128]⟩
abbrev S1x288 : Shape := ⟨2, ![1, 288]⟩
abbrev S288 : Shape := ⟨1, ![288]⟩
abbrev S288x1 : Shape := ⟨2, ![288, 1]⟩
abbrev S128 : Shape := ⟨1, ![128]⟩
abbrev S1x128 : Shape := ⟨2, ![1, 128]⟩
abbrev S64x7200 : Shape := ⟨2, ![64, 7200]⟩
abbrev S7200x64 : Shape := ⟨2, ![7200, 64]⟩
abbrev S8x30x30x64 : Shape := ⟨4, ![8, 30, 30, 64]⟩

abbrev nBuf : Space → Nat
  | .hbm => 25
  | .vmem => 6
  | .smem => 0
  | _ => 0

abbrev bufTy : (tb : Table) → Fin (tcTables nBuf tb) → BufTy
  | .hbm, ⟨0, _⟩ => ⟨S8x32x32x32, .f32⟩
  | .hbm, ⟨1, _⟩ => ⟨S1x1x1x288x64, .f32⟩
  | .hbm, ⟨2, _⟩ => ⟨S64, .f32⟩
  | .hbm, ⟨3, _⟩ => ⟨S8x30x30x32, .f32⟩
  | .hbm, ⟨4, _⟩ => ⟨S8x30x30x32, .f32⟩
  | .hbm, ⟨5, _⟩ => ⟨S8x30x30x32, .f32⟩
  | .hbm, ⟨6, _⟩ => ⟨S8x30x30x32, .f32⟩
  | .hbm, ⟨7, _⟩ => ⟨S8x30x30x32, .f32⟩
  | .hbm, ⟨8, _⟩ => ⟨S8x30x30x32, .f32⟩
  | .hbm, ⟨9, _⟩ => ⟨S8x30x30x32, .f32⟩
  | .hbm, ⟨10, _⟩ => ⟨S8x30x30x32, .f32⟩
  | .hbm, ⟨11, _⟩ => ⟨S8x30x30x32, .f32⟩
  | .hbm, ⟨12, _⟩ => ⟨S8x30x30x288, .f32⟩
  | .hbm, ⟨13, _⟩ => ⟨S7200x288, .f32⟩
  | .hbm, ⟨14, _⟩ => ⟨S288x7200, .f32⟩
  | .hbm, ⟨15, _⟩ => ⟨S288x64, .f32⟩
  | .hbm, ⟨16, _⟩ => ⟨S64x288, .f32⟩
  | .hbm, ⟨17, _⟩ => ⟨S64x1, .f32⟩
  | .hbm, ⟨18, _⟩ => ⟨S_, .i32⟩
  | .hbm, ⟨19, _⟩ => ⟨S_, .f32⟩
  | .hbm, ⟨20, _⟩ => ⟨S288x7424, .f32⟩
  | .hbm, ⟨21, _⟩ => ⟨S64x7424, .f32⟩
  | .hbm, ⟨22, _⟩ => ⟨S64x7200, .f32⟩
  | .hbm, ⟨23, _⟩ => ⟨S7200x64, .f32⟩
  | .hbm, ⟨24, _⟩ => ⟨S8x30x30x64, .f32⟩
  | .local _ .vmem, ⟨0, _⟩ => ⟨S288x128, .f32⟩
  | .local _ .vmem, ⟨1, _⟩ => ⟨S288x128, .f32⟩
  | .local _ .vmem, ⟨2, _⟩ => ⟨S64x288, .f32⟩
  | .local _ .vmem, ⟨3, _⟩ => ⟨S64x1, .f32⟩
  | .local _ .vmem, ⟨4, _⟩ => ⟨S64x128, .f32⟩
  | .local _ .vmem, ⟨5, _⟩ => ⟨S64x128, .f32⟩
  | _, _ => ⟨S8x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c : Ref sig .tc := ⟨.hbm, 18, rfl⟩
abbrev main_call0_v0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![58], ![false]⟩

@[reducible] def k0_t1_loop : Scf.Loop 32 :=
  let c0_i32 : BitVec 32 := 0#32
  let c64_i32 : BitVec 32 := 64#32
  let v0 : BitVec 32 := Scalar.addi c0_i32 c64_i32
  let c1_i32 : BitVec 32 := 1#32
  ⟨c0_i32, v0, c1_i32⟩
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let v8 : Index := Scalar.indexCast arg5
  let c0_6 : Index := 0#32
  ![v8.toNat, 0]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let v19 : Index := Scalar.indexCast arg5
  let c0_10 : Index := 0#32
  ![v19.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S288x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S8x32x32x32_S8x30x30x32_0_0_0_0 : S8x32x32x32.Slices ![0, 0, 0, 0] S8x30x30x32
  slices_S8x32x32x32_S8x30x30x32_0_0_1_0 : S8x32x32x32.Slices ![0, 0, 1, 0] S8x30x30x32
  slices_S8x32x32x32_S8x30x30x32_0_0_2_0 : S8x32x32x32.Slices ![0, 0, 2, 0] S8x30x30x32
  slices_S8x32x32x32_S8x30x30x32_0_1_0_0 : S8x32x32x32.Slices ![0, 1, 0, 0] S8x30x30x32
  slices_S8x32x32x32_S8x30x30x32_0_1_1_0 : S8x32x32x32.Slices ![0, 1, 1, 0] S8x30x30x32
  slices_S8x32x32x32_S8x30x30x32_0_1_2_0 : S8x32x32x32.Slices ![0, 1, 2, 0] S8x30x30x32
  slices_S8x32x32x32_S8x30x30x32_0_2_0_0 : S8x32x32x32.Slices ![0, 2, 0, 0] S8x30x30x32
  slices_S8x32x32x32_S8x30x30x32_0_2_1_0 : S8x32x32x32.Slices ![0, 2, 1, 0] S8x30x30x32
  slices_S8x32x32x32_S8x30x30x32_0_2_2_0 : S8x32x32x32.Slices ![0, 2, 2, 0] S8x30x30x32
  concatenates_S8x30x30x32_S8x30x30x32_S8x30x30x32_S8x30x30x32_S8x30x30x32_S8x30x30x32_S8x30x30x32_S8x30x30x32_S8x30x30x32_S8x30x30x288_d3 : Shape.Concatenates [S8x30x30x32, S8x30x30x32, S8x30x30x32, S8x30x30x32, S8x30x30x32, S8x30x30x32, S8x30x30x32, S8x30x30x32, S8x30x30x32] S8x30x30x288 3
  shapeCasts_S8x30x30x288_S7200x288 : S8x30x30x288.ShapeCasts S7200x288
  transposes_S7200x288_S288x7200_1_0 : S7200x288.Transposes [1, 0] S288x7200
  shapeCasts_S1x1x1x288x64_S288x64 : S1x1x1x288x64.ShapeCasts S288x64
  transposes_S288x64_S64x288_1_0 : S288x64.Transposes [1, 0] S64x288
  shapeCasts_S64_S64x1 : S64.ShapeCasts S64x1
  pads_S288x7200_S288x7424_000_02240 : S288x7200.Pads (![0, 0] : Fin 2 → Nat) ![0, 224] ![0, 0] S288x7424
  h_S_ : 0 < S_.numel
  h_S1x288 : 0 < S1x288.numel
  shapeCasts_S1x288_S288 : S1x288.ShapeCasts S288
  shapeCasts_S288_S288x1 : S288.ShapeCasts S288x1
  inb_S288x128_S288x128_0_0 : ∀ a, (![0, 0] : Fin 2 → Nat) a + S288x128.size a ≤ S288x128.size a
  h_S288x128 : 0 < S288x128.numel
  shapeCasts_S288x128_S288x128 : S288x128.ShapeCasts S288x128
  broadcasts_S288x1_S288x128 : S288x1.Broadcasts S288x128
  reduces_S288x128_S128 : S288x128.Reduces [0] S128
  h_S1x128 : 0 < S1x128.numel
  shapeCasts_S1x128_S128 : S1x128.ShapeCasts S128
  shapeCasts_S128_S1x128 : S128.ShapeCasts S1x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x128 : S64x1.Broadcasts S64x128
  slices_S64x7424_S64x7200_0_0 : S64x7424.Slices ![0, 0] S64x7200
  transposes_S64x7200_S7200x64_1_0 : S64x7200.Transposes [1, 0] S7200x64
  shapeCasts_S7200x64_S8x30x30x64 : S7200x64.ShapeCasts S8x30x30x64
  hrank0 : 0 < grid0.rank
  k0_t1_ok : k0_t1_loop.OK
  k0_off1_inb : ∀ k0_t1 : Fin k0_t1_loop.trips, ∀ a, (k0_off1 k0_t1) a + S1x288.size a ≤ S64x288.size a
  k0_off2_inb : ∀ k0_t1 : Fin k0_t1_loop.trips, ∀ a, (k0_off2 k0_t1) a + S1x128.size a ≤ S64x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S288x128.size a ≤ S288x7424.size a
  hwx0_0 : ∀ i : grid0.Coords, EltTy.bits .f32 = 32 ∨ (Rect.block (s := S288x7424) S288x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x288.size a ≤ S64x288.size a
  hwx0_1 : ∀ i : grid0.Coords, EltTy.bits .f32 = 32 ∨ (Rect.block (s := S64x288) S64x288.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x7424.size a
  hwx0_3 : ∀ i : grid0.Coords, EltTy.bits .f32 = 32 ∨ (Rect.block (s := S64x7424) S64x128.size (cc0_transform_3 i) (hinb0_3 i)).WholeWords (EltTy.packing .f32)

variable [Facts₀]

abbrev win0_0 : Pipeline.Window sig grid0 :=
  Pipeline.Window.ofSpec (Memref.whole main_v15) S288x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S64x288.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S64x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x32x32x32 : Shape := ⟨4, ![8, 32, 32, 32]⟩
abbrev S1x1x1x288x64 : Shape := ⟨5, ![1, 1, 1, 288, 64]⟩
abbrev S64 : Shape := ⟨1, ![64]⟩
abbrev S8x30x30x32 : Shape := ⟨4, ![8, 30, 30, 32]⟩
abbrev S8x30x30x288 : Shape := ⟨4, ![8, 30, 30, 288]⟩
abbrev S8x30x30x288x1 : Shape := ⟨5, ![8, 30, 30, 288, 1]⟩
abbrev S288x64 : Shape := ⟨2, ![288, 64]⟩
abbrev S8x30x30x288x64 : Shape := ⟨5, ![8, 30, 30, 288, 64]⟩
abbrev S_ : Shape := ⟨0, ![]⟩
abbrev S8x30x30x64 : Shape := ⟨4, ![8, 30, 30, 64]⟩
abbrev S1x1x1x64 : Shape := ⟨4, ![1, 1, 1, 64]⟩

abbrev nBuf : Space → Nat
  | .hbm => 27
  | .vmem => 0
  | .smem => 0
  | _ => 0

abbrev bufTy : (tb : Table) → Fin (tcTables nBuf tb) → BufTy
  | .hbm, ⟨0, _⟩ => ⟨S8x32x32x32, .f32⟩
  | .hbm, ⟨1, _⟩ => ⟨S1x1x1x288x64, .f32⟩
  | .hbm, ⟨2, _⟩ => ⟨S64, .f32⟩
  | .hbm, ⟨3, _⟩ => ⟨S8x30x30x32, .f32⟩
  | .hbm, ⟨4, _⟩ => ⟨S8x30x30x32, .f32⟩
  | .hbm, ⟨5, _⟩ => ⟨S8x30x30x32, .f32⟩
  | .hbm, ⟨6, _⟩ => ⟨S8x30x30x32, .f32⟩
  | .hbm, ⟨7, _⟩ => ⟨S8x30x30x32, .f32⟩
  | .hbm, ⟨8, _⟩ => ⟨S8x30x30x32, .f32⟩
  | .hbm, ⟨9, _⟩ => ⟨S8x30x30x32, .f32⟩
  | .hbm, ⟨10, _⟩ => ⟨S8x30x30x32, .f32⟩
  | .hbm, ⟨11, _⟩ => ⟨S8x30x30x32, .f32⟩
  | .hbm, ⟨12, _⟩ => ⟨S8x30x30x288, .f32⟩
  | .hbm, ⟨13, _⟩ => ⟨S8x30x30x288x1, .f32⟩
  | .hbm, ⟨14, _⟩ => ⟨S288x64, .f32⟩
  | .hbm, ⟨15, _⟩ => ⟨S1x1x1x288x64, .f32⟩
  | .hbm, ⟨16, _⟩ => ⟨S8x30x30x288x64, .f32⟩
  | .hbm, ⟨17, _⟩ => ⟨S8x30x30x288x64, .f32⟩
  | .hbm, ⟨18, _⟩ => ⟨S8x30x30x288x64, .f32⟩
  | .hbm, ⟨19, _⟩ => ⟨S_, .f32⟩
  | .hbm, ⟨20, _⟩ => ⟨S8x30x30x64, .f32⟩
  | .hbm, ⟨21, _⟩ => ⟨S_, .f32⟩
  | .hbm, ⟨22, _⟩ => ⟨S8x30x30x64, .f32⟩
  | .hbm, ⟨23, _⟩ => ⟨S8x30x30x64, .f32⟩
  | .hbm, ⟨24, _⟩ => ⟨S1x1x1x64, .f32⟩
  | .hbm, ⟨25, _⟩ => ⟨S8x30x30x64, .f32⟩
  | .hbm, ⟨26, _⟩ => ⟨S8x30x30x64, .f32⟩
  | _, _ => ⟨S8x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]

class Facts₀ : Prop where
  slices_S8x32x32x32_S8x30x30x32_0_0_0_0 : S8x32x32x32.Slices ![0, 0, 0, 0] S8x30x30x32
  slices_S8x32x32x32_S8x30x30x32_0_0_1_0 : S8x32x32x32.Slices ![0, 0, 1, 0] S8x30x30x32
  slices_S8x32x32x32_S8x30x30x32_0_0_2_0 : S8x32x32x32.Slices ![0, 0, 2, 0] S8x30x30x32
  slices_S8x32x32x32_S8x30x30x32_0_1_0_0 : S8x32x32x32.Slices ![0, 1, 0, 0] S8x30x30x32
  slices_S8x32x32x32_S8x30x30x32_0_1_1_0 : S8x32x32x32.Slices ![0, 1, 1, 0] S8x30x30x32
  slices_S8x32x32x32_S8x30x30x32_0_1_2_0 : S8x32x32x32.Slices ![0, 1, 2, 0] S8x30x30x32
  slices_S8x32x32x32_S8x30x30x32_0_2_0_0 : S8x32x32x32.Slices ![0, 2, 0, 0] S8x30x30x32
  slices_S8x32x32x32_S8x30x30x32_0_2_1_0 : S8x32x32x32.Slices ![0, 2, 1, 0] S8x30x30x32
  slices_S8x32x32x32_S8x30x30x32_0_2_2_0 : S8x32x32x32.Slices ![0, 2, 2, 0] S8x30x30x32
  concatenates_S8x30x30x32_S8x30x30x32_S8x30x30x32_S8x30x30x32_S8x30x30x32_S8x30x30x32_S8x30x30x32_S8x30x30x32_S8x30x30x32_S8x30x30x288_d3 : Shape.Concatenates [S8x30x30x32, S8x30x30x32, S8x30x30x32, S8x30x30x32, S8x30x30x32, S8x30x30x32, S8x30x30x32, S8x30x30x32, S8x30x30x32] S8x30x30x288 3
  bcast_S8x30x30x288_S8x30x30x288x1_0_1_2_3 : S8x30x30x288.BroadcastsInDim S8x30x30x288x1 (![0, 1, 2, 3] : Fin 4 → Fin S8x30x30x288x1.rank)
  shapeCasts_S1x1x1x288x64_S288x64 : S1x1x1x288x64.ShapeCasts S288x64
  bcast_S288x64_S1x1x1x288x64_3_4 : S288x64.BroadcastsInDim S1x1x1x288x64 (![3, 4] : Fin 2 → Fin S1x1x1x288x64.rank)
  bcast_S8x30x30x288x1_S8x30x30x288x64_0_1_2_3_4 : S8x30x30x288x1.BroadcastsInDim S8x30x30x288x64 (![0, 1, 2, 3, 4] : Fin 5 → Fin S8x30x30x288x64.rank)
  bcast_S1x1x1x288x64_S8x30x30x288x64_0_1_2_3_4 : S1x1x1x288x64.BroadcastsInDim S8x30x30x288x64 (![0, 1, 2, 3, 4] : Fin 5 → Fin S8x30x30x288x64.rank)
  reducesTo_S8x30x30x288x64_S8x30x30x64_d3 : S8x30x30x288x64.ReducesTo [3] S8x30x30x64
  h_S_ : 0 < S_.numel
  bcast_S64_S1x1x1x64_3 : S64.BroadcastsInDim S1x1x1x64 (![3] : Fin 1 → Fin S1x1x1x64.rank)
  bcast_S1x1x1x64_S8x30x30x64_0_1_2_3 : S1x1x1x64.BroadcastsInDim S8x30x30x64 (![0, 1, 2, 3] : Fin 4 → Fin S8x30x30x64.rank)

variable [Facts₀]

class Facts : Prop extends Facts₀ where

variable [Facts]
-- ==== Proof.BitsKit.lean ====
/-
  @main around its one region, for any float instance: what every buffer holds when the region is entered (the
  host operations before it applied to the launch memory), that the three argument arrays are written by no host
  operation before or after the region, each window's block at a grid point, and how the frame claim's post follows
  from a run that ends with every array of the pipeline at its computed contents.
-/
import proofs.«132573_j8091718386441_2_alg».proof.Proof.Gen.Kernel.Launch
import proofs.«132573_j8091718386441_2_alg».proof.Proof.Gen.Kernel.Skeleton
import proofs.«132573_j8091718386441_2_alg».proof.Proof.Gen.Kernel.Loops
import proofs.«132573_j8091718386441_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Every buffer's contents when the region is entered: the host operations before it (the patch extraction, the
    two relayouts of the weights and the bias, and the zero padding of the row axis) applied to the launch memory. -/
abbrev V0 (c : Dev nD) : Valuation τ sig (Elt F) := StableHlo.after (List.flatten [hostOps0, hostOps0_1]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1]
    (by simp only [List.Forall]; exact ⟨hostOps0_sub, hostOps0_1_sub⟩)
    (by simp only [List.Forall]; exact ⟨hostOps0_fresh, hostOps0_1_fresh⟩) main_chain

/-- The operations after the region touch only the pipeline's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.reshape_writes, Finset.mem_singleton] <;> exact StableHlo.devRef_ne_of_ne (by decide)

/-- No host operation before the region writes an argument array. -/
theorem V_of_arg (c : Dev nD) (b : Ref sig .tc) (hb : b = main_arg0 ∨ b = main_arg1 ∨ b = main_arg2) :
    V m c b = m ((c : Thread nD τ).loc b) :=
  StableHlo.after_of_forall_not_mem (b := Proc.devRef .tc b) _ _ (List.forall_iff_forall_mem.mp (by
    simp only [hostOps0, hostOps0_1, StableHlo.TRef.unary, StableHlo.TRef.binary, List.flatten_cons, List.flatten_nil, List.append_nil, List.cons_append,
      List.nil_append, List.Forall, StableHlo.nullary_writes, StableHlo.unary_writes, StableHlo.binary_writes, StableHlo.reshape_writes, StableHlo.nary_writes, Finset.mem_singleton]
    rcases hb with rfl | rfl | rfl
    all_goals repeat' apply And.intro
    all_goals exact StableHlo.devRef_ne_of_ne (by decide)))

/-- No window stages an argument array. -/
theorem arr_ne_arg (b : Ref sig .tc) (hb : b = main_arg0 ∨ b = main_arg1 ∨ b = main_arg2) : ∀ w, Pipeline.arrRef spec0 w ≠ b := by
  rcases hb with rfl | rfl | rfl <;> decide

/-- No host operation after the region writes an argument array, and none is an array of the pipeline. -/
theorem W_of_arg (dats : (p : Fin _) → (c : Dev nD) → Dat τ (Elt F) Unit ℕ (UR sig nD τ) ℕ (cfgs p) c) (c : Dev nD)
    (b : Ref sig .tc) (hb : b = main_arg0 ∨ b = main_arg1 ∨ b = main_arg2) :
    Pipeline.afterTail₀ cfgs dats 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      rcases hb with rfl | rfl | rfl
      all_goals repeat' apply And.intro
      all_goals exact StableHlo.devRef_ne_of_ne (by decide))),
    Pipeline.withArrays_of_ne _ c (V0 m c) _ b (arr_ne_arg b hb)]
  exact V_of_arg m c b hb

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the pipeline fetched it there or
    kept it from an earlier point (its block index has not moved since): windows 0, 1 and 2. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- For any proof data: a run that ends with every array of the pipeline at its computed contents and every other
    unscoped buffer as the operations after the region leave it ends with the three argument arrays as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_of_arg m dats c _ (.inl rfl)),
     ((h c).2 main_arg1 (Pipeline.mem_restRefs_of main_arg1 (by decide) (by decide))).trans (W_of_arg m dats c _ (.inr (.inl rfl))),
     ((h c).2 main_arg2 (Pipeline.mem_restRefs_of main_arg2 (by decide) (by decide))).trans (W_of_arg m dats c _ (.inr (.inr rfl)))⟩) h

/-! ## The staging memrefs at a point -/

/-- One staging buffer of the output window, through which its contents are stated. -/
abbrev VO0_3 : View sig .tc .vmem S64x128 .f32 := (Memref.whole cc0_stg3_0 : Memref sig .tc .vmem S64x128 .f32).view
abbrev ms0_0 (t : Fin cfg0.N) : Memref sig .tc .vmem S288x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x288 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x128 .f32 := win0_3.stage (cfg0.slots t 3)
abbrev hs0_3 (t : Fin cfg0.N) : (ms0_3 t).IsWhole := hstage0_3 ((cfg0.slots t 3).cast nbuf0_3)

end Cert.Kernel.Hand

end
-- ==== Proof.BitsValue.lean ====
/-
  What the kernel body leaves in the output block, as one function of the three input blocks, for any float instance.

  Trip r of the loop stores into row r of the output block the loop's payload of row r of the weight block and the whole
  patch block. The 64 rows tile the block, so after the loop the block re-loaded is, row by row, those payloads,
  whatever the buffer held before. The body then stores the whole block again: the re-loaded block and the bias column
  through the second payload. A store of the whole block overwrites everything, so reading the buffer back gives that
  second payload, and nothing of what the buffer held before the body survives.
-/
import proofs.«132573_j8091718386441_2_alg».proof.Proof.BitsKit
import Idealize.ShloMosaic.Lib.ValueIdx
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Cert.Kernel Cert.Kernel.Gen

variable {F : FTy → Type} [FloatOps F]

/-- Row `r` of the weight block, as the [1, 288] vector a trip loads. -/
def weightRow (x1 : Vec F S64x288 .f32) (r : Fin 64) : Vec F S1x288 .f32 := fun z => x1 (ix2 r ⟨(z 1).val, (z 1).isLt⟩)

/-- The block after the loop: row `r` is the loop's payload of weight row `r` and the patch block. -/
def rowsOut (x0 : Vec F S288x128 .f32) (x1 : Vec F S64x288 .f32) : Vec F S64x128 .f32 :=
  fun y => k0_pay1 (weightRow x1 ⟨(y 0).val, (y 0).isLt⟩) x0 (ix2 (0 : Fin 1) ⟨(y 1).val, (y 1).isLt⟩)

theorem rowsOut_apply (x0 : Vec F S288x128 .f32) (x1 : Vec F S64x288 .f32) (f : Fin 64) (n : Fin 128) :
    rowsOut x0 x1 (ix2 f n) = k0_pay1 (weightRow x1 f) x0 (ix2 (0 : Fin 1) n) := rfl

/-- What the body leaves in the output block: the second payload of the block after the loop and the bias column. -/
def blockOut (x0 : Vec F S288x128 .f32) (x1 : Vec F S64x288 .f32) (x2 : Vec F S64x1 .f32) : Vec F S64x128 .f32 :=
  k0_pay2 (rowsOut x0 x1) x2

/-! ## The loop's pieces, read as one function of the output block's index -/

/-- The number of trips of the loop. -/
theorem trips_eq : k0_t1_loop.trips = 64 := by decide +kernel

/-- An index of a unit-stride rectangle sits, on each axis, at the rectangle's offset plus its own coordinate. -/
theorem unit_emb_val {s : Shape} (off size : Fin s.rank → ℕ) (inb : ∀ a, off a + size a ≤ s.size a)
    (j : (Rect.unit off size inb).shape.Idx) (a : Fin s.rank) :
    ((Rect.unit off size inb).emb j a).val = off a + (j a).val := by
  rw [Rect.emb_apply, Rect.off_unit, Rect.stride_unit, Nat.one_mul]

/-- The piece trip `k` writes into the output block: at the trip's row, the loop's payload of the weight block's row
    loaded at the trip's offset and of the whole patch block. -/
def tripPiece (arg1 : Memref sig .tc .vmem S288x128 .f32) (arg2 : Memref sig .tc .vmem S64x288 .f32)
    (X1 : BufTy.Contents (Elt F) arg1.view.ty) (X2 : BufTy.Contents (Elt F) arg2.view.ty) (k : Fin k0_t1_loop.trips) :
    View.Piece (Elt F) S64x128 .f32 :=
  ⟨Rect.unit (s := S64x128) (k0_off2 k) S1x128.size (k0_off2_inb k),
    k0_pay1 (View.readAt (Elt F) arg2.view (Rect.unit (s := S64x288) (k0_off1 k) S1x288.size (k0_off1_inb k)).toLoadRect X2)
      (View.readAt (Elt F) arg1.view (Rect.unit (s := S288x128) ![0, 0] S288x128.size inb_S288x128_S288x128_0_0).toLoadRect X1)⟩

/-- One trip of the loop writes that ONE piece. -/
theorem tripL_eq (𝒱 : Variants) (c : Dev nD) (bd : Option 𝒱.V) (i : grid0.Coords) (arg1 : Memref sig .tc .vmem S288x128 .f32) (harg1 : arg1.IsWhole)
    (arg2 : Memref sig .tc .vmem S64x288 .f32) (harg2 : arg2.IsWhole) (arg3 : Memref sig .tc .vmem S64x1 .f32) (harg3 : arg3.IsWhole)
    (arg4 : Memref sig .tc .vmem S64x128 .f32) (harg4 : arg4.IsWhole)
    (X1 : BufTy.Contents (Elt F) arg1.view.ty) (X2 : BufTy.Contents (Elt F) arg2.view.ty) (k : Fin k0_t1_loop.trips) :
    tripL_k0_t1 (F := F) 𝒱 c bd i arg1 harg1 arg2 harg2 arg3 harg3 arg4 harg4 X1 X2 k
      = [tripPiece arg1 arg2 X1 X2 k] := by
  unfold tripL_k0_t1 trip_k0_t1 tripPiece
  rfl

/-- The load of row `k` of the weight block reads that row. -/
theorem rowLoad_eq (arg2 : Memref sig .tc .vmem S64x288 .f32) (harg2 : arg2.IsWhole) (x1 : Vec F S64x288 .f32)
    (k : Fin k0_t1_loop.trips) (hk : k.val < 64) :
    View.readAt (Elt F) arg2.view (Rect.unit (s := S64x288) (k0_off1 k) S1x288.size (k0_off1_inb k)).toLoadRect (harg2.unread x1)
      = weightRow x1 ⟨k.val, hk⟩ := by
  rw [View.readAt_eq_ld, harg2.read_unread]
  funext z
  show x1 ((Rect.unit (s := S64x288) (k0_off1 k) S1x288.size (k0_off1_inb k)).emb z) = x1 (ix2 ⟨k.val, hk⟩ ⟨(z 1).val, (z 1).isLt⟩)
  refine congrArg x1 (funext fun a => Fin.ext ?_)
  rw [unit_emb_val]
  match a with
  | ⟨0, _⟩ =>
    have ho : k0_off1 k 0 = k.val := congrFun (k0_off1_eq k) 0
    have h0 : (z 0).val < 1 := (z 0).isLt
    show k0_off1 k 0 + (z 0).val = k.val
    omega
  | ⟨1, _⟩ =>
    have ho : k0_off1 k 1 = 0 := congrFun (k0_off1_eq k) 1
    show k0_off1 k 1 + (z 1).val = (z 1).val
    omega

/-- The load of the whole patch block reads the block. -/
theorem wholeLoad_eq (arg1 : Memref sig .tc .vmem S288x128 .f32) (harg1 : arg1.IsWhole) (x0 : Vec F S288x128 .f32) :
    View.readAt (Elt F) arg1.view (Rect.unit (s := S288x128) ![0, 0] S288x128.size inb_S288x128_S288x128_0_0).toLoadRect (harg1.unread x0)
      = x0 := by
  rw [View.readAt_eq_ld, harg1.read_unread]
  exact View.ld_unit_zero (funext fun a => by match a with | ⟨0, _⟩ => rfl | ⟨1, _⟩ => rfl) _ x0

/-- Trip `k`'s piece is the block of `rowsOut` its rectangle names. -/
theorem piece_eq (arg1 : Memref sig .tc .vmem S288x128 .f32) (harg1 : arg1.IsWhole)
    (arg2 : Memref sig .tc .vmem S64x288 .f32) (harg2 : arg2.IsWhole)

    (x0 : Vec F S288x128 .f32) (x1 : Vec F S64x288 .f32) (k : Fin k0_t1_loop.trips)
    (x : (Rect.unit (s := S64x128) (k0_off2 k) S1x128.size (k0_off2_inb k)).shape.Idx) :
    k0_pay1 (View.readAt (Elt F) arg2.view (Rect.unit (s := S64x288) (k0_off1 k) S1x288.size (k0_off1_inb k)).toLoadRect (harg2.unread x1))
        (View.readAt (Elt F) arg1.view (Rect.unit (s := S288x128) ![0, 0] S288x128.size inb_S288x128_S288x128_0_0).toLoadRect (harg1.unread x0)) x
      = rowsOut x0 x1 ((Rect.unit (s := S64x128) (k0_off2 k) S1x128.size (k0_off2_inb k)).emb x) := by
  have hk : k.val < 64 := Nat.lt_of_lt_of_le k.isLt (Nat.le_of_eq trips_eq)
  rw [rowLoad_eq arg2 harg2 x1 k hk, wholeLoad_eq arg1 harg1 x0]
  generalize hy : (Rect.unit (s := S64x128) (k0_off2 k) S1x128.size (k0_off2_inb k)).emb x = y
  have hy0 : (y 0).val = k.val := by
    rw [← hy, unit_emb_val]
    have ho : k0_off2 k 0 = k.val := congrFun (k0_off2_eq k) 0
    have h0 : (x 0).val < 1 := (x 0).isLt
    omega
  have hy1 : (y 1).val = (x 1).val := by
    rw [← hy, unit_emb_val]
    have ho : k0_off2 k 1 = 0 := congrFun (k0_off2_eq k) 1
    omega
  have e0 : (⟨(y 0).val, (y 0).isLt⟩ : Fin 64) = ⟨k.val, hk⟩ := Fin.ext hy0
  have e1 : ix2 (0 : Fin 1) (⟨(y 1).val, (y 1).isLt⟩ : Fin 128) = x := funext fun a => Fin.ext (by
    match a with
    | ⟨0, _⟩ =>
      have h0 : (x 0).val < 1 := (x 0).isLt
      show 0 = (x 0).val
      omega
    | ⟨1, _⟩ => exact hy1)
  show k0_pay1 (weightRow x1 ⟨k.val, hk⟩) x0 x
    = k0_pay1 (weightRow x1 ⟨(y 0).val, (y 0).isLt⟩) x0 (ix2 (0 : Fin 1) ⟨(y 1).val, (y 1).isLt⟩)
  rw [e0, e1]

/-- Every piece of the trips before `n` is the block of `rowsOut` its rectangle names. -/
theorem pb_pieces (c : Dev nD) (i : grid0.Coords) (arg1 : Memref sig .tc .vmem S288x128 .f32) (harg1 : arg1.IsWhole)
    (arg2 : Memref sig .tc .vmem S64x288 .f32) (harg2 : arg2.IsWhole) (arg3 : Memref sig .tc .vmem S64x1 .f32) (harg3 : arg3.IsWhole)
    (arg4 : Memref sig .tc .vmem S64x128 .f32) (harg4 : arg4.IsWhole)
    (x0 : Vec F S288x128 .f32) (x1 : Vec F S64x288 .f32) :
    ∀ n, n ≤ k0_t1_loop.trips → ∀ p ∈ pb_k0_t1 (F := F) Variants.none c none i arg1 harg1 arg2 harg2 arg3 harg3 arg4 harg4 (harg1.unread x0) (harg2.unread x1) n,
      ∀ x : p.1.shape.Idx, p.2 x = rowsOut x0 x1 (p.1.emb x)
  | 0, _, p, hp, _ => absurd hp (by rw [pb_k0_t1.eq_1]; exact List.not_mem_nil)
  | n + 1, hn, p, hp, x => by
    have e := pb_k0_t1_succ (F := F) Variants.none c none i arg1 harg1 arg2 harg2 arg3 harg3 arg4 harg4 (harg1.unread x0) (harg2.unread x1) ⟨n, hn⟩
    rw [tripL_eq] at e
    rw [show n + 1 = (⟨n, hn⟩ : Fin k0_t1_loop.trips).val + 1 from rfl, e] at hp
    rcases List.mem_append.mp hp with h | h
    · rw [List.mem_singleton] at h
      subst h
      exact piece_eq arg1 harg1 arg2 harg2 x0 x1 ⟨n, hn⟩ x
    · exact pb_pieces c i arg1 harg1 arg2 harg2 arg3 harg3 arg4 harg4 x0 x1 n (Nat.le_of_succ_le hn) p h x

/-- Row `r` of the output block is under the piece of trip `r`: the pieces of the trips before `n` cover the rows
    before `n`. -/
theorem pb_cover (c : Dev nD) (i : grid0.Coords) (arg1 : Memref sig .tc .vmem S288x128 .f32) (harg1 : arg1.IsWhole)
    (arg2 : Memref sig .tc .vmem S64x288 .f32) (harg2 : arg2.IsWhole) (arg3 : Memref sig .tc .vmem S64x1 .f32) (harg3 : arg3.IsWhole)
    (arg4 : Memref sig .tc .vmem S64x128 .f32) (harg4 : arg4.IsWhole)
    (x0 : Vec F S288x128 .f32) (x1 : Vec F S64x288 .f32) :
    ∀ n, n ≤ k0_t1_loop.trips → ∀ y : S64x128.Idx, (y 0).val < n →
      ∃ p ∈ pb_k0_t1 (F := F) Variants.none c none i arg1 harg1 arg2 harg2 arg3 harg3 arg4 harg4 (harg1.unread x0) (harg2.unread x1) n, y ∈ p.1.set
  | 0, _, _, hy => absurd hy (Nat.not_lt_zero _)
  | n + 1, hn, y, hy => by
    have e := pb_k0_t1_succ (F := F) Variants.none c none i arg1 harg1 arg2 harg2 arg3 harg3 arg4 harg4 (harg1.unread x0) (harg2.unread x1) ⟨n, hn⟩
    rw [tripL_eq] at e
    rw [show n + 1 = (⟨n, hn⟩ : Fin k0_t1_loop.trips).val + 1 from rfl, e]
    by_cases hlt : (y 0).val < n
    · obtain ⟨p, hp, hyp⟩ := pb_cover c i arg1 harg1 arg2 harg2 arg3 harg3 arg4 harg4 x0 x1 n (Nat.le_of_succ_le hn) y hlt
      exact ⟨p, List.mem_append_right _ hp, hyp⟩
    · refine ⟨tripPiece arg1 arg2 (harg1.unread x0) (harg2.unread x1) ⟨n, hn⟩,
        List.mem_append_left _ (List.mem_singleton_self _), ?_⟩
      show y ∈ (Rect.unit (s := S64x128) (k0_off2 ⟨n, hn⟩) S1x128.size (k0_off2_inb ⟨n, hn⟩)).set
      refine Rect.mem_set_unit.mpr fun a => ?_
      match a with
      | ⟨0, _⟩ =>
        have ho : k0_off2 (⟨n, hn⟩ : Fin k0_t1_loop.trips) 0 = n := congrFun (k0_off2_eq ⟨n, hn⟩) 0
        show k0_off2 (⟨n, hn⟩ : Fin k0_t1_loop.trips) 0 ≤ (y 0).val ∧ (y 0).val < k0_off2 (⟨n, hn⟩ : Fin k0_t1_loop.trips) 0 + 1
        omega
      | ⟨1, _⟩ =>
        have ho : k0_off2 (⟨n, hn⟩ : Fin k0_t1_loop.trips) 1 = 0 := congrFun (k0_off2_eq ⟨n, hn⟩) 1
        have h1 : (y 1).val < 128 := (y 1).isLt
        show k0_off2 (⟨n, hn⟩ : Fin k0_t1_loop.trips) 1 ≤ (y 1).val ∧ (y 1).val < k0_off2 (⟨n, hn⟩ : Fin k0_t1_loop.trips) 1 + 128
        omega

/-- After the loop the output block reads, row by row, the loop's payloads, whatever the buffer held before. -/
theorem read_after_loop (c : Dev nD) (i : grid0.Coords) (arg1 : Memref sig .tc .vmem S288x128 .f32) (harg1 : arg1.IsWhole)
    (arg2 : Memref sig .tc .vmem S64x288 .f32) (harg2 : arg2.IsWhole) (arg3 : Memref sig .tc .vmem S64x1 .f32) (harg3 : arg3.IsWhole)
    (arg4 : Memref sig .tc .vmem S64x128 .f32) (harg4 : arg4.IsWhole)
    (x0 : Vec F S288x128 .f32) (x1 : Vec F S64x288 .f32) (f3 : BufTy.Contents (Elt F) arg4.view.ty) :
    arg4.view.read (Elt F) (arg4.view.writes (Elt F) f3
        (pb_k0_t1 (F := F) Variants.none c none i arg1 harg1 arg2 harg2 arg3 harg3 arg4 harg4 (harg1.unread x0) (harg2.unread x1) (Scf.trips k0_t1_loop.lb k0_t1_loop.ub k0_t1_loop.st)))
      = rowsOut x0 x1 :=
  funext fun y => View.read_writes_apply_of_pieces arg4.view f3 (rowsOut x0 x1) _
    (pb_pieces c i arg1 harg1 arg2 harg2 arg3 harg3 arg4 harg4 x0 x1 _ (Nat.le_refl _)) y
    (pb_cover c i arg1 harg1 arg2 harg2 arg3 harg3 arg4 harg4 x0 x1 _ (Nat.le_refl _) y
      (Nat.lt_of_lt_of_le (show (y 0).val < 64 from (y 0).isLt) (Nat.le_of_eq trips_eq.symm)))

/-- A store of a whole block through the rectangle at zero offsets, read back through the view, is the stored block,
    whatever was there. -/
theorem read_write_unit_zero {sig : RefSig} {κ : Kind} {sp : Space} {S : Shape} {e : EltTy} {Val : EltTy → Type}
    (v : View sig κ sp S e) {off : Fin S.rank → ℕ} (h : off = fun _ => 0) (inb : ∀ a, off a + S.size a ≤ S.size a)
    (f : v.ty.Contents Val) (w : S.Idx → Val e) :
    v.read Val (View.write Val (v.slice (Rect.unit off S.size inb)) f w Finset.univ) = w := by
  subst h
  exact View.read_writes_whole v f w

/-- Reading the output buffer back after the body: the final whole-block store over the 64 row stores of the loop over
    anything is `blockOut` of the three input blocks. -/
theorem body_leaves (c : Dev nD) (i : grid0.Coords) (arg1 : Memref sig .tc .vmem S288x128 .f32) (harg1 : arg1.IsWhole)
    (arg2 : Memref sig .tc .vmem S64x288 .f32) (harg2 : arg2.IsWhole) (arg3 : Memref sig .tc .vmem S64x1 .f32) (harg3 : arg3.IsWhole)
    (arg4 : Memref sig .tc .vmem S64x128 .f32) (harg4 : arg4.IsWhole)
    (x0 : Vec F S288x128 .f32) (x1 : Vec F S64x288 .f32) (x2 : Vec F S64x1 .f32) (f3 : BufTy.Contents (Elt F) arg4.view.ty) :
    arg4.view.read (Elt F)
      (View.write (Elt F) (arg4.access (Rect.unit (s := S64x128) ![0, 0] S64x128.size inb_S64x128_S64x128_0_0))
        (arg4.view.writes (Elt F) f3
          (pb_k0_t1 Variants.none c none i arg1 harg1 arg2 harg2 arg3 harg3 arg4 harg4 (harg1.unread x0) (harg2.unread x1)
            (Scf.trips k0_t1_loop.lb k0_t1_loop.ub k0_t1_loop.st)))
        (k0_pay2
          (View.readAt (Elt F) arg4.view (Rect.unit (s := S64x128) ![0, 0] S64x128.size inb_S64x128_S64x128_0_0).toLoadRect
            (arg4.view.writes (Elt F) f3
              (pb_k0_t1 Variants.none c none i arg1 harg1 arg2 harg2 arg3 harg3 arg4 harg4 (harg1.unread x0) (harg2.unread x1)
                (Scf.trips k0_t1_loop.lb k0_t1_loop.ub k0_t1_loop.st))))
          (View.readAt (Elt F) arg3.view (Rect.unit (s := S64x1) ![0, 0] S64x1.size inb_S64x1_S64x1_0_0).toLoadRect (harg3.unread x2)))
        Finset.univ)
      = blockOut x0 x1 x2 := by
  have hz : (![0, 0] : Fin 2 → ℕ) = fun _ => 0 := funext fun a => by match a with | ⟨0, _⟩ => rfl | ⟨1, _⟩ => rfl
  have hA : View.readAt (Elt F) arg4.view (Rect.unit (s := S64x128) ![0, 0] S64x128.size inb_S64x128_S64x128_0_0).toLoadRect
      (arg4.view.writes (Elt F) f3
        (pb_k0_t1 Variants.none c none i arg1 harg1 arg2 harg2 arg3 harg3 arg4 harg4 (harg1.unread x0) (harg2.unread x1)
          (Scf.trips k0_t1_loop.lb k0_t1_loop.ub k0_t1_loop.st))) = rowsOut x0 x1 := by
    rw [View.readAt_eq_ld, read_after_loop]
    exact View.ld_unit_zero hz _ _
  have hB : View.readAt (Elt F) arg3.view (Rect.unit (s := S64x1) ![0, 0] S64x1.size inb_S64x1_S64x1_0_0).toLoadRect (harg3.unread x2)
      = x2 := by
    rw [View.readAt_eq_ld, harg3.read_unread]
    exact View.ld_unit_zero hz _ _
  rw [hA, hB]
  exact read_write_unit_zero arg4.view hz _ _ _

end Cert.Kernel.Hand

end
-- ==== Proof.BitsRun.lean ====
/-
  The kernel body on any four whole staging buffers: from the three inputs at their contents and the output buffer at
  anything, the body runs to the end and leaves the inputs as they were and the output buffer at the block function
  of the three input blocks (the value lemma's `blockOut`).
-/
import proofs.«132573_j8091718386441_2_alg».proof.Proof.BitsValue

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's triple. The loop is passed by its invariant (the pieces of the trips so far written over what the output
    buffer held); after it the block is loaded back, the bias column loaded, and the whole block stored; what the output
    buffer then reads as is the value lemma's. -/
theorem bodyRun (c : Dev nD) (i : grid0.Coords) (arg1 : Memref sig .tc .vmem S288x128 .f32) (harg1 : arg1.IsWhole)
    (arg2 : Memref sig .tc .vmem S64x288 .f32) (harg2 : arg2.IsWhole) (arg3 : Memref sig .tc .vmem S64x1 .f32) (harg3 : arg3.IsWhole)
    (arg4 : Memref sig .tc .vmem S64x128 .f32) (harg4 : arg4.IsWhole)
    (x0 : Vec F S288x128 .f32) (x1 : Vec F S64x288 .f32) (x2 : Vec F S64x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (blockOut x0 x1 x2)) -∗ K ⟨⟩))
      ⊢ wp frame (wpE (defs₀ (F := F)) Variants.none c none) E (cc0__tropconv_kernel i arg1 harg1 arg2 harg2 arg3 harg3 arg4 harg4) K := by
  simp only [cc0__tropconv_kernel_eq_skeleton]; unfold cc0__tropconv_kernel_skel
  unfold owns
  iintro ⟨⟨%f0, %hf0, H0⟩, ⟨%f1, %hf1, H1⟩, ⟨%f2, %hf2, H2⟩, ⟨%d3, %f3, -, H3⟩, Hk⟩
  obtain rfl := harg1.eq_unread hf0
  obtain rfl := harg2.eq_unread hf1
  obtain rfl := harg3.eq_unread hf2
  sl_exec
  sl_step
  sl_unfold_run_names
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr; swap
  · iexact H3
  ipureintro; exact body_leaves c i arg1 harg1 arg2 harg2 arg3 harg3 arg4 harg4 x0 x1 x2 f3

end Cert.Kernel.Hand

end
-- ==== Proof.BitsFrame.lean ====
/-
  The pipeline's proof data, the body obligation at a generic grid point, the run of @main and the frame claim, for any
  float instance. At every point each input window's staging buffer holds its block of the array the region was
  entered with, and the body leaves in the output window's buffer the block function of those three blocks; so the
  output array ends, block by block, at that function of the blocks of the inputs, and the argument arrays end as
  launched.
-/
import proofs.«132573_j8091718386441_2_alg».proof.Proof.BitsRun

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output holds after each point -/

/-- The output window's staging buffer after the body at point `t`: the block function of the three input blocks there. -/
def outAt (c : Dev nD) (t : Fin cfg0.N) : Vec F S64x128 .f32 :=
  blockOut (iblk m c 0 t) (iblk m c 1 t) (iblk m c 2 t)

/-! ## The proof data -/

/-- The arrays as the region finds them; after the body at point `t` each input's buffer at its block and the output's
    at `outAt`; the invariant is the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point: the inputs' buffers hold their blocks, so the body's triple applies; the invariant passes
    through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  unfold outAt
  iintro ⟨HΦ, Ho, ⟨%d0, H0⟩, ⟨%d1, H1⟩, ⟨%d2, H2⟩, ⟨%d3, H3⟩⟩
  iapply (bodyRun c (grid0.coords t) _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the proof data compute and every other unscoped buffer as the operations after the
    region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim at any float instance: @main runs to the end, faults nowhere, and the three argument arrays end
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.Kernel.Hand

end
-- ==== Proof.IdealKit.lean ====
/-
  @main around its one region, for any float instance: what every buffer holds when the region is entered (the
  host operations before it applied to the launch memory), that the three argument arrays are written by no host
  operation before or after the region, each window's block at a grid point, and how the frame claim's post follows
  from a run that ends with every array of the pipeline at its computed contents.
-/
import proofs.«132573_j8091718386441_2_alg».proof.Proof.Gen.KernelIdeal.Launch
import proofs.«132573_j8091718386441_2_alg».proof.Proof.Gen.KernelIdeal.Skeleton
import proofs.«132573_j8091718386441_2_alg».proof.Proof.Gen.KernelIdeal.Loops
import proofs.«132573_j8091718386441_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Every buffer's contents when the region is entered: the host operations before it (the patch extraction, the
    two relayouts of the weights and the bias, and the zero padding of the row axis) applied to the launch memory. -/
abbrev V0 (c : Dev nD) : Valuation τ sig (Elt F) := StableHlo.after (List.flatten [hostOps0, hostOps0_1]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1]
    (by simp only [List.Forall]; exact ⟨hostOps0_sub, hostOps0_1_sub⟩)
    (by simp only [List.Forall]; exact ⟨hostOps0_fresh, hostOps0_1_fresh⟩) main_chain

/-- The operations after the region touch only the pipeline's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.reshape_writes, Finset.mem_singleton] <;> exact StableHlo.devRef_ne_of_ne (by decide)

/-- No host operation before the region writes an argument array. -/
theorem V_of_arg (c : Dev nD) (b : Ref sig .tc) (hb : b = main_arg0 ∨ b = main_arg1 ∨ b = main_arg2) :
    V m c b = m ((c : Thread nD τ).loc b) :=
  StableHlo.after_of_forall_not_mem (b := Proc.devRef .tc b) _ _ (List.forall_iff_forall_mem.mp (by
    simp only [hostOps0, hostOps0_1, StableHlo.TRef.unary, StableHlo.TRef.binary, List.flatten_cons, List.flatten_nil, List.append_nil, List.cons_append,
      List.nil_append, List.Forall, StableHlo.nullary_writes, StableHlo.unary_writes, StableHlo.binary_writes, StableHlo.reshape_writes, StableHlo.nary_writes, Finset.mem_singleton]
    rcases hb with rfl | rfl | rfl
    all_goals repeat' apply And.intro
    all_goals exact StableHlo.devRef_ne_of_ne (by decide)))

/-- No window stages an argument array. -/
theorem arr_ne_arg (b : Ref sig .tc) (hb : b = main_arg0 ∨ b = main_arg1 ∨ b = main_arg2) : ∀ w, Pipeline.arrRef spec0 w ≠ b := by
  rcases hb with rfl | rfl | rfl <;> decide

/-- No host operation after the region writes an argument array, and none is an array of the pipeline. -/
theorem W_of_arg (dats : (p : Fin _) → (c : Dev nD) → Dat τ (Elt F) Unit ℕ (UR sig nD τ) ℕ (cfgs p) c) (c : Dev nD)
    (b : Ref sig .tc) (hb : b = main_arg0 ∨ b = main_arg1 ∨ b = main_arg2) :
    Pipeline.afterTail₀ cfgs dats 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      rcases hb with rfl | rfl | rfl
      all_goals repeat' apply And.intro
      all_goals exact StableHlo.devRef_ne_of_ne (by decide))),
    Pipeline.withArrays_of_ne _ c (V0 m c) _ b (arr_ne_arg b hb)]
  exact V_of_arg m c b hb

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the pipeline fetched it there or
    kept it from an earlier point (its block index has not moved since): windows 0, 1 and 2. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- For any proof data: a run that ends with every array of the pipeline at its computed contents and every other
    unscoped buffer as the operations after the region leave it ends with the three argument arrays as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_of_arg m dats c _ (.inl rfl)),
     ((h c).2 main_arg1 (Pipeline.mem_restRefs_of main_arg1 (by decide) (by decide))).trans (W_of_arg m dats c _ (.inr (.inl rfl))),
     ((h c).2 main_arg2 (Pipeline.mem_restRefs_of main_arg2 (by decide) (by decide))).trans (W_of_arg m dats c _ (.inr (.inr rfl)))⟩) h

/-! ## The staging memrefs at a point -/

/-- One staging buffer of the output window, through which its contents are stated. -/
abbrev VO0_3 : View sig .tc .vmem S64x128 .f32 := (Memref.whole cc0_stg3_0 : Memref sig .tc .vmem S64x128 .f32).view
abbrev ms0_0 (t : Fin cfg0.N) : Memref sig .tc .vmem S288x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x288 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x128 .f32 := win0_3.stage (cfg0.slots t 3)
abbrev hs0_3 (t : Fin cfg0.N) : (ms0_3 t).IsWhole := hstage0_3 ((cfg0.slots t 3).cast nbuf0_3)

end Cert.KernelIdeal.Hand

end
-- ==== Proof.IdealValue.lean ====
/-
  What the kernel body leaves in the output block, as one function of the three input blocks, for any float instance.

  Trip r of the loop stores into row r of the output block the loop's payload of row r of the weight block and the whole
  patch block. The 64 rows tile the block, so after the loop the block re-loaded is, row by row, those payloads,
  whatever the buffer held before. The body then stores the whole block again: the re-loaded block and the bias column
  through the second payload. A store of the whole block overwrites everything, so reading the buffer back gives that
  second payload, and nothing of what the buffer held before the body survives.
-/
import proofs.«132573_j8091718386441_2_alg».proof.Proof.IdealKit
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Cert.KernelIdeal Cert.KernelIdeal.Gen

variable {F : FTy → Type} [FloatOps F]

/-- Row `r` of the weight block, as the [1, 288] vector a trip loads. -/
def weightRow (x1 : Vec F S64x288 .f32) (r : Fin 64) : Vec F S1x288 .f32 := fun z => x1 (ix2 r ⟨(z 1).val, (z 1).isLt⟩)

/-- The block after the loop: row `r` is the loop's payload of weight row `r` and the patch block. -/
def rowsOut (x0 : Vec F S288x128 .f32) (x1 : Vec F S64x288 .f32) : Vec F S64x128 .f32 :=
  fun y => k0_pay1 (weightRow x1 ⟨(y 0).val, (y 0).isLt⟩) x0 (ix2 (0 : Fin 1) ⟨(y 1).val, (y 1).isLt⟩)

theorem rowsOut_apply (x0 : Vec F S288x128 .f32) (x1 : Vec F S64x288 .f32) (f : Fin 64) (n : Fin 128) :
    rowsOut x0 x1 (ix2 f n) = k0_pay1 (weightRow x1 f) x0 (ix2 (0 : Fin 1) n) := rfl

/-- What the body leaves in the output block: the second payload of the block after the loop and the bias column. -/
def blockOut (x0 : Vec F S288x128 .f32) (x1 : Vec F S64x288 .f32) (x2 : Vec F S64x1 .f32) : Vec F S64x128 .f32 :=
  k0_pay2 (rowsOut x0 x1) x2

/-! ## The loop's pieces, read as one function of the output block's index -/

/-- The number of trips of the loop. -/
theorem trips_eq : k0_t1_loop.trips = 64 := by decide +kernel

/-- An index of a unit-stride rectangle sits, on each axis, at the rectangle's offset plus its own coordinate. -/
theorem unit_emb_val {s : Shape} (off size : Fin s.rank → ℕ) (inb : ∀ a, off a + size a ≤ s.size a)
    (j : (Rect.unit off size inb).shape.Idx) (a : Fin s.rank) :
    ((Rect.unit off size inb).emb j a).val = off a + (j a).val := by
  rw [Rect.emb_apply, Rect.off_unit, Rect.stride_unit, Nat.one_mul]

/-- The piece trip `k` writes into the output block: at the trip's row, the loop's payload of the weight block's row
    loaded at the trip's offset and of the whole patch block. -/
def tripPiece (arg1 : Memref sig .tc .vmem S288x128 .f32) (arg2 : Memref sig .tc .vmem S64x288 .f32)
    (X1 : BufTy.Contents (Elt F) arg1.view.ty) (X2 : BufTy.Contents (Elt F) arg2.view.ty) (k : Fin k0_t1_loop.trips) :
    View.Piece (Elt F) S64x128 .f32 :=
  ⟨Rect.unit (s := S64x128) (k0_off2 k) S1x128.size (k0_off2_inb k),
    k0_pay1 (View.readAt (Elt F) arg2.view (Rect.unit (s := S64x288) (k0_off1 k) S1x288.size (k0_off1_inb k)).toLoadRect X2)
      (View.readAt (Elt F) arg1.view (Rect.unit (s := S288x128) ![0, 0] S288x128.size inb_S288x128_S288x128_0_0).toLoadRect X1)⟩

/-- One trip of the loop writes that ONE piece. -/
theorem tripL_eq (𝒱 : Variants) (c : Dev nD) (bd : Option 𝒱.V) (i : grid0.Coords) (arg1 : Memref sig .tc .vmem S288x128 .f32) (harg1 : arg1.IsWhole)
    (arg2 : Memref sig .tc .vmem S64x288 .f32) (harg2 : arg2.IsWhole) (arg3 : Memref sig .tc .vmem S64x1 .f32) (harg3 : arg3.IsWhole)
    (arg4 : Memref sig .tc .vmem S64x128 .f32) (harg4 : arg4.IsWhole)
    (X1 : BufTy.Contents (Elt F) arg1.view.ty) (X2 : BufTy.Contents (Elt F) arg2.view.ty) (k : Fin k0_t1_loop.trips) :
    tripL_k0_t1 (F := F) 𝒱 c bd i arg1 harg1 arg2 harg2 arg3 harg3 arg4 harg4 X1 X2 k
      = [tripPiece arg1 arg2 X1 X2 k] := by
  unfold tripL_k0_t1 trip_k0_t1 tripPiece
  rfl

/-- The load of row `k` of the weight block reads that row. -/
theorem rowLoad_eq (arg2 : Memref sig .tc .vmem S64x288 .f32) (harg2 : arg2.IsWhole) (x1 : Vec F S64x288 .f32)
    (k : Fin k0_t1_loop.trips) (hk : k.val < 64) :
    View.readAt (Elt F) arg2.view (Rect.unit (s := S64x288) (k0_off1 k) S1x288.size (k0_off1_inb k)).toLoadRect (harg2.unread x1)
      = weightRow x1 ⟨k.val, hk⟩ := by
  rw [View.readAt_eq_ld, harg2.read_unread]
  funext z
  show x1 ((Rect.unit (s := S64x288) (k0_off1 k) S1x288.size (k0_off1_inb k)).emb z) = x1 (ix2 ⟨k.val, hk⟩ ⟨(z 1).val, (z 1).isLt⟩)
  refine congrArg x1 (funext fun a => Fin.ext ?_)
  rw [unit_emb_val]
  match a with
  | ⟨0, _⟩ =>
    have ho : k0_off1 k 0 = k.val := congrFun (k0_off1_eq k) 0
    have h0 : (z 0).val < 1 := (z 0).isLt
    show k0_off1 k 0 + (z 0).val = k.val
    omega
  | ⟨1, _⟩ =>
    have ho : k0_off1 k 1 = 0 := congrFun (k0_off1_eq k) 1
    show k0_off1 k 1 + (z 1).val = (z 1).val
    omega

/-- The load of the whole patch block reads the block. -/
theorem wholeLoad_eq (arg1 : Memref sig .tc .vmem S288x128 .f32) (harg1 : arg1.IsWhole) (x0 : Vec F S288x128 .f32) :
    View.readAt (Elt F) arg1.view (Rect.unit (s := S288x128) ![0, 0] S288x128.size inb_S288x128_S288x128_0_0).toLoadRect (harg1.unread x0)
      = x0 := by
  rw [View.readAt_eq_ld, harg1.read_unread]
  exact View.ld_unit_zero (funext fun a => by match a with | ⟨0, _⟩ => rfl | ⟨1, _⟩ => rfl) _ x0

/-- Trip `k`'s piece is the block of `rowsOut` its rectangle names. -/
theorem piece_eq (arg1 : Memref sig .tc .vmem S288x128 .f32) (harg1 : arg1.IsWhole)
    (arg2 : Memref sig .tc .vmem S64x288 .f32) (harg2 : arg2.IsWhole)

    (x0 : Vec F S288x128 .f32) (x1 : Vec F S64x288 .f32) (k : Fin k0_t1_loop.trips)
    (x : (Rect.unit (s := S64x128) (k0_off2 k) S1x128.size (k0_off2_inb k)).shape.Idx) :
    k0_pay1 (View.readAt (Elt F) arg2.view (Rect.unit (s := S64x288) (k0_off1 k) S1x288.size (k0_off1_inb k)).toLoadRect (harg2.unread x1))
        (View.readAt (Elt F) arg1.view (Rect.unit (s := S288x128) ![0, 0] S288x128.size inb_S288x128_S288x128_0_0).toLoadRect (harg1.unread x0)) x
      = rowsOut x0 x1 ((Rect.unit (s := S64x128) (k0_off2 k) S1x128.size (k0_off2_inb k)).emb x) := by
  have hk : k.val < 64 := Nat.lt_of_lt_of_le k.isLt (Nat.le_of_eq trips_eq)
  rw [rowLoad_eq arg2 harg2 x1 k hk, wholeLoad_eq arg1 harg1 x0]
  generalize hy : (Rect.unit (s := S64x128) (k0_off2 k) S1x128.size (k0_off2_inb k)).emb x = y
  have hy0 : (y 0).val = k.val := by
    rw [← hy, unit_emb_val]
    have ho : k0_off2 k 0 = k.val := congrFun (k0_off2_eq k) 0
    have h0 : (x 0).val < 1 := (x 0).isLt
    omega
  have hy1 : (y 1).val = (x 1).val := by
    rw [← hy, unit_emb_val]
    have ho : k0_off2 k 1 = 0 := congrFun (k0_off2_eq k) 1
    omega
  have e0 : (⟨(y 0).val, (y 0).isLt⟩ : Fin 64) = ⟨k.val, hk⟩ := Fin.ext hy0
  have e1 : ix2 (0 : Fin 1) (⟨(y 1).val, (y 1).isLt⟩ : Fin 128) = x := funext fun a => Fin.ext (by
    match a with
    | ⟨0, _⟩ =>
      have h0 : (x 0).val < 1 := (x 0).isLt
      show 0 = (x 0).val
      omega
    | ⟨1, _⟩ => exact hy1)
  show k0_pay1 (weightRow x1 ⟨k.val, hk⟩) x0 x
    = k0_pay1 (weightRow x1 ⟨(y 0).val, (y 0).isLt⟩) x0 (ix2 (0 : Fin 1) ⟨(y 1).val, (y 1).isLt⟩)
  rw [e0, e1]

/-- Every piece of the trips before `n` is the block of `rowsOut` its rectangle names. -/
theorem pb_pieces (c : Dev nD) (i : grid0.Coords) (arg1 : Memref sig .tc .vmem S288x128 .f32) (harg1 : arg1.IsWhole)
    (arg2 : Memref sig .tc .vmem S64x288 .f32) (harg2 : arg2.IsWhole) (arg3 : Memref sig .tc .vmem S64x1 .f32) (harg3 : arg3.IsWhole)
    (arg4 : Memref sig .tc .vmem S64x128 .f32) (harg4 : arg4.IsWhole)
    (x0 : Vec F S288x128 .f32) (x1 : Vec F S64x288 .f32) :
    ∀ n, n ≤ k0_t1_loop.trips → ∀ p ∈ pb_k0_t1 (F := F) Variants.none c none i arg1 harg1 arg2 harg2 arg3 harg3 arg4 harg4 (harg1.unread x0) (harg2.unread x1) n,
      ∀ x : p.1.shape.Idx, p.2 x = rowsOut x0 x1 (p.1.emb x)
  | 0, _, p, hp, _ => absurd hp (by rw [pb_k0_t1.eq_1]; exact List.not_mem_nil)
  | n + 1, hn, p, hp, x => by
    have e := pb_k0_t1_succ (F := F) Variants.none c none i arg1 harg1 arg2 harg2 arg3 harg3 arg4 harg4 (harg1.unread x0) (harg2.unread x1) ⟨n, hn⟩
    rw [tripL_eq] at e
    rw [show n + 1 = (⟨n, hn⟩ : Fin k0_t1_loop.trips).val + 1 from rfl, e] at hp
    rcases List.mem_append.mp hp with h | h
    · rw [List.mem_singleton] at h
      subst h
      exact piece_eq arg1 harg1 arg2 harg2 x0 x1 ⟨n, hn⟩ x
    · exact pb_pieces c i arg1 harg1 arg2 harg2 arg3 harg3 arg4 harg4 x0 x1 n (Nat.le_of_succ_le hn) p h x

/-- Row `r` of the output block is under the piece of trip `r`: the pieces of the trips before `n` cover the rows
    before `n`. -/
theorem pb_cover (c : Dev nD) (i : grid0.Coords) (arg1 : Memref sig .tc .vmem S288x128 .f32) (harg1 : arg1.IsWhole)
    (arg2 : Memref sig .tc .vmem S64x288 .f32) (harg2 : arg2.IsWhole) (arg3 : Memref sig .tc .vmem S64x1 .f32) (harg3 : arg3.IsWhole)
    (arg4 : Memref sig .tc .vmem S64x128 .f32) (harg4 : arg4.IsWhole)
    (x0 : Vec F S288x128 .f32) (x1 : Vec F S64x288 .f32) :
    ∀ n, n ≤ k0_t1_loop.trips → ∀ y : S64x128.Idx, (y 0).val < n →
      ∃ p ∈ pb_k0_t1 (F := F) Variants.none c none i arg1 harg1 arg2 harg2 arg3 harg3 arg4 harg4 (harg1.unread x0) (harg2.unread x1) n, y ∈ p.1.set
  | 0, _, _, hy => absurd hy (Nat.not_lt_zero _)
  | n + 1, hn, y, hy => by
    have e := pb_k0_t1_succ (F := F) Variants.none c none i arg1 harg1 arg2 harg2 arg3 harg3 arg4 harg4 (harg1.unread x0) (harg2.unread x1) ⟨n, hn⟩
    rw [tripL_eq] at e
    rw [show n + 1 = (⟨n, hn⟩ : Fin k0_t1_loop.trips).val + 1 from rfl, e]
    by_cases hlt : (y 0).val < n
    · obtain ⟨p, hp, hyp⟩ := pb_cover c i arg1 harg1 arg2 harg2 arg3 harg3 arg4 harg4 x0 x1 n (Nat.le_of_succ_le hn) y hlt
      exact ⟨p, List.mem_append_right _ hp, hyp⟩
    · refine ⟨tripPiece arg1 arg2 (harg1.unread x0) (harg2.unread x1) ⟨n, hn⟩,
        List.mem_append_left _ (List.mem_singleton_self _), ?_⟩
      show y ∈ (Rect.unit (s := S64x128) (k0_off2 ⟨n, hn⟩) S1x128.size (k0_off2_inb ⟨n, hn⟩)).set
      refine Rect.mem_set_unit.mpr fun a => ?_
      match a with
      | ⟨0, _⟩ =>
        have ho : k0_off2 (⟨n, hn⟩ : Fin k0_t1_loop.trips) 0 = n := congrFun (k0_off2_eq ⟨n, hn⟩) 0
        show k0_off2 (⟨n, hn⟩ : Fin k0_t1_loop.trips) 0 ≤ (y 0).val ∧ (y 0).val < k0_off2 (⟨n, hn⟩ : Fin k0_t1_loop.trips) 0 + 1
        omega
      | ⟨1, _⟩ =>
        have ho : k0_off2 (⟨n, hn⟩ : Fin k0_t1_loop.trips) 1 = 0 := congrFun (k0_off2_eq ⟨n, hn⟩) 1
        have h1 : (y 1).val < 128 := (y 1).isLt
        show k0_off2 (⟨n, hn⟩ : Fin k0_t1_loop.trips) 1 ≤ (y 1).val ∧ (y 1).val < k0_off2 (⟨n, hn⟩ : Fin k0_t1_loop.trips) 1 + 128
        omega

/-- After the loop the output block reads, row by row, the loop's payloads, whatever the buffer held before. -/
theorem read_after_loop (c : Dev nD) (i : grid0.Coords) (arg1 : Memref sig .tc .vmem S288x128 .f32) (harg1 : arg1.IsWhole)
    (arg2 : Memref sig .tc .vmem S64x288 .f32) (harg2 : arg2.IsWhole) (arg3 : Memref sig .tc .vmem S64x1 .f32) (harg3 : arg3.IsWhole)
    (arg4 : Memref sig .tc .vmem S64x128 .f32) (harg4 : arg4.IsWhole)
    (x0 : Vec F S288x128 .f32) (x1 : Vec F S64x288 .f32) (f3 : BufTy.Contents (Elt F) arg4.view.ty) :
    arg4.view.read (Elt F) (arg4.view.writes (Elt F) f3
        (pb_k0_t1 (F := F) Variants.none c none i arg1 harg1 arg2 harg2 arg3 harg3 arg4 harg4 (harg1.unread x0) (harg2.unread x1) (Scf.trips k0_t1_loop.lb k0_t1_loop.ub k0_t1_loop.st)))
      = rowsOut x0 x1 :=
  funext fun y => View.read_writes_apply_of_pieces arg4.view f3 (rowsOut x0 x1) _
    (pb_pieces c i arg1 harg1 arg2 harg2 arg3 harg3 arg4 harg4 x0 x1 _ (Nat.le_refl _)) y
    (pb_cover c i arg1 harg1 arg2 harg2 arg3 harg3 arg4 harg4 x0 x1 _ (Nat.le_refl _) y
      (Nat.lt_of_lt_of_le (show (y 0).val < 64 from (y 0).isLt) (Nat.le_of_eq trips_eq.symm)))

/-- A store of a whole block through the rectangle at zero offsets, read back through the view, is the stored block,
    whatever was there. -/
theorem read_write_unit_zero {sig : RefSig} {κ : Kind} {sp : Space} {S : Shape} {e : EltTy} {Val : EltTy → Type}
    (v : View sig κ sp S e) {off : Fin S.rank → ℕ} (h : off = fun _ => 0) (inb : ∀ a, off a + S.size a ≤ S.size a)
    (f : v.ty.Contents Val) (w : S.Idx → Val e) :
    v.read Val (View.write Val (v.slice (Rect.unit off S.size inb)) f w Finset.univ) = w := by
  subst h
  exact View.read_writes_whole v f w

/-- Reading the output buffer back after the body: the final whole-block store over the 64 row stores of the loop over
    anything is `blockOut` of the three input blocks. -/
theorem body_leaves (c : Dev nD) (i : grid0.Coords) (arg1 : Memref sig .tc .vmem S288x128 .f32) (harg1 : arg1.IsWhole)
    (arg2 : Memref sig .tc .vmem S64x288 .f32) (harg2 : arg2.IsWhole) (arg3 : Memref sig .tc .vmem S64x1 .f32) (harg3 : arg3.IsWhole)
    (arg4 : Memref sig .tc .vmem S64x128 .f32) (harg4 : arg4.IsWhole)
    (x0 : Vec F S288x128 .f32) (x1 : Vec F S64x288 .f32) (x2 : Vec F S64x1 .f32) (f3 : BufTy.Contents (Elt F) arg4.view.ty) :
    arg4.view.read (Elt F)
      (View.write (Elt F) (arg4.access (Rect.unit (s := S64x128) ![0, 0] S64x128.size inb_S64x128_S64x128_0_0))
        (arg4.view.writes (Elt F) f3
          (pb_k0_t1 Variants.none c none i arg1 harg1 arg2 harg2 arg3 harg3 arg4 harg4 (harg1.unread x0) (harg2.unread x1)
            (Scf.trips k0_t1_loop.lb k0_t1_loop.ub k0_t1_loop.st)))
        (k0_pay2
          (View.readAt (Elt F) arg4.view (Rect.unit (s := S64x128) ![0, 0] S64x128.size inb_S64x128_S64x128_0_0).toLoadRect
            (arg4.view.writes (Elt F) f3
              (pb_k0_t1 Variants.none c none i arg1 harg1 arg2 harg2 arg3 harg3 arg4 harg4 (harg1.unread x0) (harg2.unread x1)
                (Scf.trips k0_t1_loop.lb k0_t1_loop.ub k0_t1_loop.st))))
          (View.readAt (Elt F) arg3.view (Rect.unit (s := S64x1) ![0, 0] S64x1.size inb_S64x1_S64x1_0_0).toLoadRect (harg3.unread x2)))
        Finset.univ)
      = blockOut x0 x1 x2 := by
  have hz : (![0, 0] : Fin 2 → ℕ) = fun _ => 0 := funext fun a => by match a with | ⟨0, _⟩ => rfl | ⟨1, _⟩ => rfl
  have hA : View.readAt (Elt F) arg4.view (Rect.unit (s := S64x128) ![0, 0] S64x128.size inb_S64x128_S64x128_0_0).toLoadRect
      (arg4.view.writes (Elt F) f3
        (pb_k0_t1 Variants.none c none i arg1 harg1 arg2 harg2 arg3 harg3 arg4 harg4 (harg1.unread x0) (harg2.unread x1)
          (Scf.trips k0_t1_loop.lb k0_t1_loop.ub k0_t1_loop.st))) = rowsOut x0 x1 := by
    rw [View.readAt_eq_ld, read_after_loop]
    exact View.ld_unit_zero hz _ _
  have hB : View.readAt (Elt F) arg3.view (Rect.unit (s := S64x1) ![0, 0] S64x1.size inb_S64x1_S64x1_0_0).toLoadRect (harg3.unread x2)
      = x2 := by
    rw [View.readAt_eq_ld, harg3.read_unread]
    exact View.ld_unit_zero hz _ _
  rw [hA, hB]
  exact read_write_unit_zero arg4.view hz _ _ _

end Cert.KernelIdeal.Hand

end
-- ==== Proof.IdealRun.lean ====
/-
  The kernel body on any four whole staging buffers: from the three inputs at their contents and the output buffer at
  anything, the body runs to the end and leaves the inputs as they were and the output buffer at the block function
  of the three input blocks (the value lemma's `blockOut`).
-/
import proofs.«132573_j8091718386441_2_alg».proof.Proof.IdealValue

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's triple. The loop is passed by its invariant (the pieces of the trips so far written over what the output
    buffer held); after it the block is loaded back, the bias column loaded, and the whole block stored; what the output
    buffer then reads as is the value lemma's. -/
theorem bodyRun (c : Dev nD) (i : grid0.Coords) (arg1 : Memref sig .tc .vmem S288x128 .f32) (harg1 : arg1.IsWhole)
    (arg2 : Memref sig .tc .vmem S64x288 .f32) (harg2 : arg2.IsWhole) (arg3 : Memref sig .tc .vmem S64x1 .f32) (harg3 : arg3.IsWhole)
    (arg4 : Memref sig .tc .vmem S64x128 .f32) (harg4 : arg4.IsWhole)
    (x0 : Vec F S288x128 .f32) (x1 : Vec F S64x288 .f32) (x2 : Vec F S64x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (blockOut x0 x1 x2)) -∗ K ⟨⟩))
      ⊢ wp frame (wpE (defs₀ (F := F)) Variants.none c none) E (cc0__tropconv_kernel i arg1 harg1 arg2 harg2 arg3 harg3 arg4 harg4) K := by
  simp only [cc0__tropconv_kernel_eq_skeleton]; unfold cc0__tropconv_kernel_skel
  unfold owns
  iintro ⟨⟨%f0, %hf0, H0⟩, ⟨%f1, %hf1, H1⟩, ⟨%f2, %hf2, H2⟩, ⟨%d3, %f3, -, H3⟩, Hk⟩
  obtain rfl := harg1.eq_unread hf0
  obtain rfl := harg2.eq_unread hf1
  obtain rfl := harg3.eq_unread hf2
  sl_exec
  sl_step
  sl_unfold_run_names
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr; swap
  · iexact H3
  ipureintro; exact body_leaves c i arg1 harg1 arg2 harg2 arg3 harg3 arg4 harg4 x0 x1 x2 f3

end Cert.KernelIdeal.Hand

end
-- ==== Proof.IdealFrame.lean ====
/-
  The pipeline's proof data, the body obligation at a generic grid point, the run of @main and the frame claim, for any
  float instance. At every point each input window's staging buffer holds its block of the array the region was
  entered with, and the body leaves in the output window's buffer the block function of those three blocks; so the
  output array ends, block by block, at that function of the blocks of the inputs, and the argument arrays end as
  launched.
-/
import proofs.«132573_j8091718386441_2_alg».proof.Proof.IdealRun

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output holds after each point -/

/-- The output window's staging buffer after the body at point `t`: the block function of the three input blocks there. -/
def outAt (c : Dev nD) (t : Fin cfg0.N) : Vec F S64x128 .f32 :=
  blockOut (iblk m c 0 t) (iblk m c 1 t) (iblk m c 2 t)

/-! ## The proof data -/

/-- The arrays as the region finds them; after the body at point `t` each input's buffer at its block and the output's
    at `outAt`; the invariant is the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point: the inputs' buffers hold their blocks, so the body's triple applies; the invariant passes
    through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  unfold outAt
  iintro ⟨HΦ, Ho, ⟨%d0, H0⟩, ⟨%d1, H1⟩, ⟨%d2, H2⟩, ⟨%d3, H3⟩⟩
  iapply (bodyRun c (grid0.coords t) _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the proof data compute and every other unscoped buffer as the operations after the
    region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim at any float instance: @main runs to the end, faults nowhere, and the three argument arrays end
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.KernelIdeal.Hand

end
-- ==== Proof.Spec.lean ====
/-
  The mathematics both programs compute, stated once over plain index functions and importing no program.

  A tropical convolution: for an output position (b, i, j) and a feature f, take the 288 numbers
  p(b, i, j, c) + w(c, f) — a patch entry shifted by a weight — and return their spread, the largest minus the
  smallest, plus the feature's bias. The largest is the running maximum started from the value of the word
  0xFF800000 and the smallest the running minimum started from the value of 0x7F800000; both words are kept as
  written and never evaluated, because the same word stands on both sides of every equation below.
  Maximum and minimum on the extended reals are commutative and associative, so the order in which the 288 numbers
  are visited does not matter; subtraction and addition are applied to the same two numbers on both sides. No step
  needs an entry to be finite.
-/
import Idealize.ShloMosaic.PureOps.Ideal
import Idealize.ShloMosaic.Lib.ValueIdx

noncomputable section

namespace Cert.TropConv

open Idealize.ShloMosaic Idealize.ShloMosaic.ValueIdx

/-- The value the running maximum starts from. -/
abbrev maxStart : Ideal .f32 := Ideal.ofBits .f32 0xFF800000#32
/-- The value the running minimum starts from. -/
abbrev minStart : Ideal .f32 := Ideal.ofBits .f32 0x7F800000#32

/-- The spread of 288 numbers: their running maximum less their running minimum. -/
def spread (r : Fin 288 → Ideal .f32) : Ideal .f32 :=
  (Finset.univ : Finset (Fin 288)).fold max maxStart r - (Finset.univ : Finset (Fin 288)).fold min minStart r

/-- The shifted row of output position (b, i, j) and feature f: patch entry c plus weight (c, f). -/
def shiftedRow (p : FVec Ideal ⟨4, ![8, 30, 30, 288]⟩ .f32) (w : FVec Ideal ⟨2, ![288, 64]⟩ .f32)
    (b : Fin 8) (i j : Fin 30) (f : Fin 64) : Fin 288 → Ideal .f32 :=
  fun c => p (ix4 b i j c) + w (ix2 c f)

/-- One entry of the tropical convolution. -/
def entry (p : FVec Ideal ⟨4, ![8, 30, 30, 288]⟩ .f32) (w : FVec Ideal ⟨2, ![288, 64]⟩ .f32) (bias : FVec Ideal ⟨1, ![64]⟩ .f32)
    (b : Fin 8) (i j : Fin 30) (f : Fin 64) : Ideal .f32 :=
  spread (shiftedRow p w b i j f) + bias (ix1 f)

/-- The whole result array, index by index. -/
def result (p : FVec Ideal ⟨4, ![8, 30, 30, 288]⟩ .f32) (w : FVec Ideal ⟨2, ![288, 64]⟩ .f32) (bias : FVec Ideal ⟨1, ![64]⟩ .f32) :
    FVec Ideal ⟨4, ![8, 30, 30, 64]⟩ .f32 :=
  fun y => entry p w bias (y 0) (y 1) (y 2) (y 3)

theorem result_apply (p : FVec Ideal ⟨4, ![8, 30, 30, 288]⟩ .f32) (w : FVec Ideal ⟨2, ![288, 64]⟩ .f32) (bias : FVec Ideal ⟨1, ![64]⟩ .f32)
    (b : Fin 8) (i j : Fin 30) (f : Fin 64) : result p w bias (ix4 b i j f) = entry p w bias b i j f := rfl

end Cert.TropConv

end
-- ==== Proof.IdealHost.lean ====
/-
  The host operations around the region are pure relayouts. Read at an index, at the ideal instance: the array the
  region reads as its first window is the patch tensor transposed (row k, column the row number of an output
  position), the second the weights transposed, the third the bias as a column; and the three operations after the
  region read the padded output array back at (feature, row number).
-/
import proofs.«132573_j8091718386441_2_alg».proof.Proof.IdealKit
import proofs.«132573_j8091718386441_2_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run

set_option maxRecDepth 16384

noncomputable section

namespace Cert.KernelIdeal.HostValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Hand Idealize.ShloMosaic.ValueIdx Idealize.ShloMosaic.StableHlo

/-! ## The operations after the region -/

/-- the row number of output position (b, i, j) -/
def rowOf (b : Fin 8) (i j : Fin 30) : Fin 7424 := ⟨(b.val * 30 + i.val) * 30 + j.val, by omega⟩

/-- The row number of an output position is one of the 7200 rows that are not padding. -/
theorem rowOf_lt (b : Fin 8) (i j : Fin 30) : (b.val * 30 + i.val) * 30 + j.val < 7200 := by omega

/-- Keeping the first 7200 columns reads the operand at the same coordinates. -/
theorem slice_cols_apply (A : FVec Ideal S64x7424 .f32) (f : Fin 64) (r : Fin 7200) :
    extractStridedSlice S64x7200 ![0, 0] A slices_S64x7424_S64x7200_0_0 (ix2 f r) = A (ix2 f ⟨r.val, by omega⟩) :=
  extractStridedSlice_apply ![0, 0] A slices_S64x7424_S64x7200_0_0 (ix2 f r) (ix2 f ⟨r.val, by omega⟩) (fun a => match a with
    | ⟨0, _⟩ => by show f.val = 0 + f.val; omega
    | ⟨1, _⟩ => by show r.val = 0 + r.val; omega)

/-- The transpose of a 64 by 7200 array reads it with the coordinates exchanged. -/
theorem transpose_out_apply (B : FVec Ideal S64x7200 .f32) (r : Fin 7200) (f : Fin 64) :
    transpose S7200x64 [1, 0] B transposes_S64x7200_S7200x64_1_0 (ix2 r f) = B (ix2 f r) :=
  transpose_apply [1, 0] B transposes_S64x7200_S7200x64_1_0 (ix2 r f) (ix2 f r) (fun b => match b with
    | ⟨0, _⟩ => rfl
    | ⟨1, _⟩ => rfl)

/-- The reshape of 7200 rows to (8, 30, 30) reads row (b * 30 + i) * 30 + j at position (b, i, j). -/
theorem reshape_out_apply (C : FVec Ideal S7200x64 .f32) (b : Fin 8) (i j : Fin 30) (f : Fin 64) :
    shapeCast S8x30x30x64 C shapeCasts_S7200x64_S8x30x30x64 (ix4 b i j f) = C (ix2 ⟨(b.val * 30 + i.val) * 30 + j.val, rowOf_lt b i j⟩ f) :=
  shapeCast_apply C shapeCasts_S7200x64_S8x30x30x64 (ix4 b i j f) (ix2 ⟨(b.val * 30 + i.val) * 30 + j.val, rowOf_lt b i j⟩ f) (by
    rw [Shape.rowMajor_val_two, Shape.rowMajor_val_four]
    show ((b.val * 30 + i.val) * 30 + j.val) * 64 + f.val = ((b.val * 30 + i.val) * 30 + j.val) * 64 + f.val
    rfl)

/-- the three operations after the region, as one function of the padded output array -/
def unlay (A : FVec Ideal S64x7424 .f32) : FVec Ideal S8x30x30x64 .f32 :=
  shapeCast S8x30x30x64 (transpose S7200x64 [1, 0] (extractStridedSlice S64x7200 ![0, 0] A slices_S64x7424_S64x7200_0_0) transposes_S64x7200_S7200x64_1_0) shapeCasts_S7200x64_S8x30x30x64

/-- Output position (b, i, j), feature f of the result is the padded output array at (f, row number of (b, i, j)). -/
theorem unlay_apply (A : FVec Ideal S64x7424 .f32) (b : Fin 8) (i j : Fin 30) (f : Fin 64) :
    unlay A (ix4 b i j f) = A (ix2 f (rowOf b i j)) := by
  unfold unlay
  rw [reshape_out_apply, transpose_out_apply, slice_cols_apply]
  rfl

/-! ## The operations before the region -/

variable (m : (ℓ : Loc nD τ sig) → Buf (Elt Ideal) ℓ) (c : Dev nD)

/-- A vector of 64 entries reshaped to a column reads entry f at (f, 0). -/
theorem reshape_bias_apply (x : FVec Ideal S64 .f32) (f : Fin 64) :
    shapeCast S64x1 x shapeCasts_S64_S64x1 (ix2 f (0 : Fin 1)) = x (ix1 f) :=
  shapeCast_apply x shapeCasts_S64_S64x1 (ix2 f (0 : Fin 1)) (ix1 f) (by
    rw [Shape.rowMajor_val_one, Shape.rowMajor_val_two]
    show f.val = f.val * 1 + 0
    omega)

/-- The third window's array is the bias as a column. -/
theorem V_main_v14 : (V m c main_v14 : S64x1.Idx → Ideal .f32)
    = shapeCast S64x1 (m ((c : Thread nD τ).loc main_arg2) : S64.Idx → Ideal .f32) shapeCasts_S64_S64x1 := by
  dsimp only [V, V0]
  simp only [hostOps0, hostOps0_1, List.flatten_cons, List.flatten_nil, List.append_nil, List.cons_append, List.nil_append]
  after_results
  rfl

theorem V_biasCol (f : Fin 64) :
    (V m c main_v14 : S64x1.Idx → Ideal .f32) (ix2 f (0 : Fin 1)) = (m ((c : Thread nD τ).loc main_arg2) : S64.Idx → Ideal .f32) (ix1 f) := by
  rw [V_main_v14, reshape_bias_apply]

/-- the patch tensor: the nine shifted windows of the input joined along the channel axis -/
def patches (x0 : FVec Ideal S8x32x32x32 .f32) : FVec Ideal S8x30x30x288 .f32 :=
  concatenate S8x30x30x288 3
    [⟨S8x30x30x32, extractStridedSlice S8x30x30x32 ![0, 0, 0, 0] x0 slices_S8x32x32x32_S8x30x30x32_0_0_0_0⟩,
     ⟨S8x30x30x32, extractStridedSlice S8x30x30x32 ![0, 0, 1, 0] x0 slices_S8x32x32x32_S8x30x30x32_0_0_1_0⟩,
     ⟨S8x30x30x32, extractStridedSlice S8x30x30x32 ![0, 0, 2, 0] x0 slices_S8x32x32x32_S8x30x30x32_0_0_2_0⟩,
     ⟨S8x30x30x32, extractStridedSlice S8x30x30x32 ![0, 1, 0, 0] x0 slices_S8x32x32x32_S8x30x30x32_0_1_0_0⟩,
     ⟨S8x30x30x32, extractStridedSlice S8x30x30x32 ![0, 1, 1, 0] x0 slices_S8x32x32x32_S8x30x30x32_0_1_1_0⟩,
     ⟨S8x30x30x32, extractStridedSlice S8x30x30x32 ![0, 1, 2, 0] x0 slices_S8x32x32x32_S8x30x30x32_0_1_2_0⟩,
     ⟨S8x30x30x32, extractStridedSlice S8x30x30x32 ![0, 2, 0, 0] x0 slices_S8x32x32x32_S8x30x30x32_0_2_0_0⟩,
     ⟨S8x30x30x32, extractStridedSlice S8x30x30x32 ![0, 2, 1, 0] x0 slices_S8x32x32x32_S8x30x30x32_0_2_1_0⟩,
     ⟨S8x30x30x32, extractStridedSlice S8x30x30x32 ![0, 2, 2, 0] x0 slices_S8x32x32x32_S8x30x30x32_0_2_2_0⟩]
    concatenates_S8x30x30x32_S8x30x30x32_S8x30x30x32_S8x30x30x32_S8x30x30x32_S8x30x30x32_S8x30x30x32_S8x30x30x32_S8x30x30x32_S8x30x30x288_d3

/-- the weights as a 288 by 64 matrix -/
def weights (x1 : FVec Ideal S1x1x1x288x64 .f32) : FVec Ideal S288x64 .f32 := shapeCast S288x64 x1 shapeCasts_S1x1x1x288x64_S288x64

/-- The transpose of a 288 by 64 matrix reads it with the coordinates exchanged. -/
theorem transpose_weights_apply (w : FVec Ideal S288x64 .f32) (f : Fin 64) (k : Fin 288) :
    transpose S64x288 [1, 0] w transposes_S288x64_S64x288_1_0 (ix2 f k) = w (ix2 k f) :=
  transpose_apply [1, 0] w transposes_S288x64_S64x288_1_0 (ix2 f k) (ix2 k f) (fun b => match b with
    | ⟨0, _⟩ => rfl
    | ⟨1, _⟩ => rfl)

/-- The second window's array is the weight matrix transposed. -/
theorem V_main_v13 : (V m c main_v13 : S64x288.Idx → Ideal .f32)
    = transpose S64x288 [1, 0] (weights (m ((c : Thread nD τ).loc main_arg1))) transposes_S288x64_S64x288_1_0 := by
  dsimp only [V, V0]
  simp only [hostOps0, hostOps0_1, List.flatten_cons, List.flatten_nil, List.append_nil, List.cons_append, List.nil_append]
  after_results
  rfl

theorem V_weightsT (f : Fin 64) (k : Fin 288) :
    (V m c main_v13 : S64x288.Idx → Ideal .f32) (ix2 f k) = weights (m ((c : Thread nD τ).loc main_arg1)) (ix2 k f) := by
  rw [V_main_v13, transpose_weights_apply]

/-- A pad on the right of the column axis reads the operand at the same coordinates on the columns that are not padding. -/
theorem pad_cols_apply (T : FVec Ideal S288x7200 .f32) (z : FVec Ideal S_ .f32) (k : Fin 288) (r : Fin 7200) :
    pad S288x7424 ![0, 0] ![0, 224] ![0, 0] T z pads_S288x7200_S288x7424_000_02240 h_S_ (ix2 k (⟨r.val, by omega⟩ : Fin 7424)) = T (ix2 k r) :=
  pad_apply_of_inside ![0, 0] ![0, 224] ![0, 0] T z pads_S288x7200_S288x7424_000_02240 h_S_ (ix2 k (⟨r.val, by omega⟩ : Fin 7424)) (ix2 k r) (fun a => match a with
    | ⟨0, _⟩ => by show k.val = 0 + k.val * (0 + 1); omega
    | ⟨1, _⟩ => by show r.val = 0 + r.val * (0 + 1); omega)

/-- The transpose of a 7200 by 288 array reads it with the coordinates exchanged. -/
theorem transpose_patches_apply (Q : FVec Ideal S7200x288 .f32) (k : Fin 288) (r : Fin 7200) :
    transpose S288x7200 [1, 0] Q transposes_S7200x288_S288x7200_1_0 (ix2 k r) = Q (ix2 r k) :=
  transpose_apply [1, 0] Q transposes_S7200x288_S288x7200_1_0 (ix2 k r) (ix2 r k) (fun b => match b with
    | ⟨0, _⟩ => rfl
    | ⟨1, _⟩ => rfl)

/-- The reshape of positions (8, 30, 30) to 7200 rows reads position (b, i, j) at row (b * 30 + i) * 30 + j. -/
theorem reshape_patches_apply (p : FVec Ideal S8x30x30x288 .f32) (b : Fin 8) (i j : Fin 30) (k : Fin 288) :
    shapeCast S7200x288 p shapeCasts_S8x30x30x288_S7200x288 (ix2 (⟨(b.val * 30 + i.val) * 30 + j.val, rowOf_lt b i j⟩ : Fin 7200) k) = p (ix4 b i j k) :=
  shapeCast_apply p shapeCasts_S8x30x30x288_S7200x288 (ix2 (⟨(b.val * 30 + i.val) * 30 + j.val, rowOf_lt b i j⟩ : Fin 7200) k) (ix4 b i j k) (by
    rw [Shape.rowMajor_val_two, Shape.rowMajor_val_four]
    show ((b.val * 30 + i.val) * 30 + j.val) * 288 + k.val = ((b.val * 30 + i.val) * 30 + j.val) * 288 + k.val
    rfl)

/-- The first window's array is the patch tensor, its positions numbered row by row, transposed and padded on the right
    to 7424 columns. -/
theorem V_main_v15 : (V m c main_v15 : S288x7424.Idx → Ideal .f32)
    = pad S288x7424 ![0, 0] ![0, 224] ![0, 0]
        (transpose S288x7200 [1, 0] (shapeCast S7200x288 (patches (m ((c : Thread nD τ).loc main_arg0))) shapeCasts_S8x30x30x288_S7200x288) transposes_S7200x288_S288x7200_1_0)
        (sitofp (F := Ideal) .f32 (constantI S_ 32 0#32)) pads_S288x7200_S288x7424_000_02240 h_S_ := by
  dsimp only [V, V0]
  simp only [hostOps0, hostOps0_1, StableHlo.TRef.unary, StableHlo.TRef.binary, List.flatten_cons, List.flatten_nil, List.append_nil, List.cons_append, List.nil_append]
  after_results
  rfl

theorem V_patchesT (b : Fin 8) (i j : Fin 30) (k : Fin 288) :
    (V m c main_v15 : S288x7424.Idx → Ideal .f32) (ix2 k (rowOf b i j)) = patches (m ((c : Thread nD τ).loc main_arg0)) (ix4 b i j k) := by
  rw [V_main_v15]
  exact (pad_cols_apply _ _ k ⟨(b.val * 30 + i.val) * 30 + j.val, rowOf_lt b i j⟩).trans
    ((transpose_patches_apply _ k _).trans (reshape_patches_apply _ b i j k))

end Cert.KernelIdeal.HostValue

end
-- ==== Proof.IdealPayload.lean ====
/-
  The kernel body's arithmetic, read index by index at the ideal instance (floats are extended reals): one trip of
  the loop stores, at each lane, the spread of 288 shifted numbers; after the loop the block is re-loaded and the
  bias column is added along the lanes.
-/
import proofs.«132573_j8091718386441_2_alg».proof.Proof.Gen.KernelIdeal.Skeleton
import proofs.«132573_j8091718386441_2_alg».proof.Proof.Spec
import Idealize.ShloMosaic.Lib.Pipeline.Value
import Idealize.ShloMosaic.Lib.ValueIdx
import Idealize.ShloMosaic.Lib.ValueLayout
import Idealize.ShloMosaic.PureOps.Reduce
import Idealize.ShloMosaic.PureOps.Ideal.Laws

set_option maxRecDepth 16384

noncomputable section

namespace Cert.KernelIdeal.Payload

open Cert.KernelIdeal Cert.KernelIdeal.Gen Idealize.ShloMosaic Idealize.ShloMosaic.ValueIdx

/-! ## Two layout readings: a vector as a column, and a column repeated along the lanes -/

section Layout
variable {α : Type}

/-- An `[a]` array cast to the column `[a, 1]` reads, at `(i, u)`, the operand at `i`, whatever the unit
    coordinate `u`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## One trip of the loop -/

/-- The weight row as a column: entry `(k, u)` of the column is entry `(0, k)` of the row. -/
theorem weightCol_apply (w : FVec Ideal S1x288 .f32) (k : Fin 288) (u : Fin 1) :
    shapeCast S288x1 (shapeCast S288 w shapeCasts_S1x288_S288) shapeCasts_S288_S288x1 (ix2 k u)
      = w (ix2 (0 : Fin 1) k) :=
  (shapeCast_a_a1_apply _ shapeCasts_S288_S288x1 k u).trans (shapeCast_1a_a_apply w shapeCasts_S1x288_S288 k)

/-- The array of shifted numbers: the patch block plus the weight column repeated along the lanes. -/
def shifted (w : FVec Ideal S1x288 .f32) (x : FVec Ideal S288x128 .f32) : FVec Ideal S288x128 .f32 :=
  addf (shapeCast S288x128 x shapeCasts_S288x128_S288x128)
    (broadcastTo S288x128 (shapeCast S288x1 (shapeCast S288 w shapeCasts_S1x288_S288) shapeCasts_S288_S288x1)
      broadcasts_S288x1_S288x128)

/-- At `(k, n)` it is the block's entry plus weight `k`. -/
theorem shifted_apply (w : FVec Ideal S1x288 .f32) (x : FVec Ideal S288x128 .f32) (k : Fin 288) (n : Fin 128) :
    shifted w x (ix2 k n) = x (ix2 k n) + w (ix2 (0 : Fin 1) k) := by
  unfold shifted
  rw [addf_apply, shapeCast_self]
  refine congrArg (x (ix2 k n) + ·) ?_
  exact (broadcastTo_a1_ab_apply _ broadcasts_S288x1_S288x128 k n).trans (weightCol_apply w k 0)

/-- The index over lane `n` with row `k` put back is `(k, n)`. -/
theorem lift_ix2 (n : Fin 128) (k : Fin 288) :
    Shape.Reduces.lift reduces_S288x128_S128 (ix1 n) k = ix2 k n := by
  funext c; apply Fin.ext
  fin_cases c <;> rfl

/-- The maximum over the rows at lane `n`: the running maximum of that lane's 288 entries. -/
theorem max_at (src : FVec Ideal S288x128 .f32) (hφ : FKind.Formats .f32)
    (hacc : (0xFF800000#32 : BitVec FTy.f32.bits) = FKind.maximumf.neutral .f32 hφ) (n : Fin 128) :
    multiReduction (F := Ideal) .maximumf [0] S128 src 0xFF800000#32 reduces_S288x128_S128 hφ hacc (ix1 n)
      = (Finset.univ : Finset (Fin 288)).fold max Cert.TropConv.maxStart (fun k => src (ix2 k n)) := by
  refine (Ideal.multiReduction_maximumf_single src 0xFF800000#32 reduces_S288x128_S128 hφ hacc (ix1 n)).trans ?_
  exact congrArg (fun r : Fin 288 → Ideal .f32 =>
      Finset.fold max Cert.TropConv.maxStart r (Finset.univ : Finset (Fin 288)))
    (funext fun k => congrArg src (lift_ix2 n k))

/-- The minimum over the rows at lane `n`: the running minimum of that lane's 288 entries. -/
theorem min_at (src : FVec Ideal S288x128 .f32) (hφ : FKind.Formats .f32)
    (hacc : (0x7F800000#32 : BitVec FTy.f32.bits) = FKind.minimumf.neutral .f32 hφ) (n : Fin 128) :
    multiReduction (F := Ideal) .minimumf [0] S128 src 0x7F800000#32 reduces_S288x128_S128 hφ hacc (ix1 n)
      = (Finset.univ : Finset (Fin 288)).fold min Cert.TropConv.minStart (fun k => src (ix2 k n)) := by
  refine (multiReduction_minimumf_eq_fold src 0x7F800000#32 reduces_S288x128_S128 hφ hacc (ix1 n)).trans ?_
  refine (Shape.Reduces.fold_filter_drop_single reduces_S288x128_S128 _ _ src (ix1 n)).trans ?_
  exact congrArg (fun r : Fin 288 → Ideal .f32 =>
      Finset.fold min Cert.TropConv.minStart r (Finset.univ : Finset (Fin 288)))
    (funext fun k => congrArg src (lift_ix2 n k))

/-- One trip's stored row is the cast to one row of: the maximum over the rows less the minimum over the rows of the
    array of shifted numbers. -/
theorem pay1_eq (w : FVec Ideal S1x288 .f32) (x : FVec Ideal S288x128 .f32) :
    k0_pay1 (F := Ideal) w x
      = shapeCast S1x128
          (subf (multiReduction (F := Ideal) .maximumf [0] S128 (shifted w x) 0xFF800000#32 reduces_S288x128_S128 (.inl rfl) rfl)
            (multiReduction (F := Ideal) .minimumf [0] S128 (shifted w x) 0x7F800000#32 reduces_S288x128_S128 (.inl rfl) rfl))
          shapeCasts_S128_S1x128 := rfl

/-- One trip of the loop: from the weight row `w` and the patch block `x`, the stored row is, at lane `n`, the
    spread of the 288 numbers `x(k, n) + w(0, k)`. -/
theorem pay1_apply (w : Vec Ideal S1x288 .f32) (x : Vec Ideal S288x128 .f32) (n : Fin 128) :
    k0_pay1 (F := Ideal) w x (ix2 (0 : Fin 1) n)
      = Cert.TropConv.spread (fun k : Fin 288 => x (ix2 k n) + w (ix2 (0 : Fin 1) k)) := by
  rw [pay1_eq]
  refine (shapeCast_a_1a_apply _ shapeCasts_S128_S1x128 (0 : Fin 1) n).trans ?_
  refine (subf_apply _ _ (ix1 n)).trans ?_
  have e : (fun k : Fin 288 => shifted w x (ix2 k n)) = fun k : Fin 288 => x (ix2 k n) + w (ix2 (0 : Fin 1) k) :=
    funext fun k => shifted_apply w x k n
  have hmax := max_at (shifted w x) (.inl rfl) rfl n
  have hmin := min_at (shifted w x) (.inl rfl) rfl n
  rw [e] at hmax hmin
  unfold Cert.TropConv.spread
  exact congrArg₂ (· - ·) hmax hmin

/-! ## After the loop -/

/-- The block re-loaded plus the bias column repeated along the lanes. -/
theorem pay2_apply (o : Vec Ideal S64x128 .f32) (bcol : Vec Ideal S64x1 .f32) (f : Fin 64) (n : Fin 128) :
    k0_pay2 (F := Ideal) o bcol (ix2 f n) = o (ix2 f n) + bcol (ix2 f (0 : Fin 1)) := by
  unfold k0_pay2
  rw [addf_apply, shapeCast_self, shapeCast_self]
  exact congrArg (o (ix2 f n) + ·) (broadcastTo_a1_ab_apply bcol broadcasts_S64x1_S64x128 f n)

end Cert.KernelIdeal.Payload

end
-- ==== Proof.IdealFinal.lean ====
/-
  The kernel side, finished at the ideal instance. The output array after the region is one function of the arrays
  the region was entered with: entry (f, r) is the spread over k of (patch matrix)(k, r) + (weight matrix)(f, k), plus
  the bias column at f, because block t of that function is what the body leaves at point t and the 58 blocks cover
  the array. The three operations after the region read it back at (feature, row number), so the result array is the
  specification's tropical convolution of the patch tensor, the reshaped weights and the bias.
-/
import proofs.«132573_j8091718386441_2_alg».proof.Proof.IdealFrame
import proofs.«132573_j8091718386441_2_alg».proof.Proof.IdealHost
import proofs.«132573_j8091718386441_2_alg».proof.Proof.IdealPayload
import Idealize.ShloMosaic.Lib.Pipeline.Value

set_option maxRecDepth 16384

noncomputable section

namespace Cert.KernelIdeal.Final

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Hand Idealize.ShloMosaic.ValueIdx Idealize.ShloMosaic.StableHlo
open Cert.KernelIdeal.Hand Cert.KernelIdeal.HostValue Cert.KernelIdeal.Payload Idealize.ShloMosaic.Pipeline

variable (m : (ℓ : Loc nD τ sig) → Buf (Elt Ideal) ℓ) (c : Dev nD)

/-- Entry (f, r) computed from a patch matrix P [288, 7424], a weight matrix W [64, 288] and a bias column B [64, 1]: the
    spread over k of P(k, r) + W(f, k), plus B(f, 0). -/
def outOf (P : FVec Ideal S288x7424 .f32) (W : FVec Ideal S64x288 .f32) (B : FVec Ideal S64x1 .f32) : FVec Ideal S64x7424 .f32 := fun y =>
  Cert.TropConv.spread (fun k : Fin 288 => P (ix2 k ⟨(y 1).val, (y 1).isLt⟩) + W (ix2 ⟨(y 0).val, (y 0).isLt⟩ k))
    + B (ix2 ⟨(y 0).val, (y 0).isLt⟩ (0 : Fin 1))

theorem outOf_apply (P : FVec Ideal S288x7424 .f32) (W : FVec Ideal S64x288 .f32) (B : FVec Ideal S64x1 .f32) (f : Fin 64) (r : Fin 7424) :
    outOf P W B (ix2 f r) = Cert.TropConv.spread (fun k : Fin 288 => P (ix2 k r) + W (ix2 f k)) + B (ix2 f (0 : Fin 1)) := rfl

/-- entry (f, r) of the padded output array [64, 7424]: the spread over k of (patch matrix)(k, r) + (weight matrix)(f, k), plus the bias column at f -/
def outArr : FVec Ideal S64x7424 .f32 := outOf (V m c main_v15) (V m c main_v13) (V m c main_v14)

/-- the result buffer after the three operations that follow the region -/
theorem tail_result : Pipeline.afterTail₀ cfgs (dats (F := Ideal) m) 0 (V0 m) [hostOps1] c main_v19 = unlay ((dats (F := Ideal) m 0 c).arrAt 3 cfg0.N) := by
  unfold Pipeline.afterTail₀
  show StableHlo.after hostOps1 _ (Proc.devRef .tc main_v19) = _
  after_results
  have h : (Pipeline.withArrays (cfgs 0).spec c (V0 m c) (fun w => (dats (F := Ideal) m 0 c).arrAt w (cfgs 0).N) (Proc.devRef .tc main_v16) : S64x7424.Idx → Ideal .f32)
      = (dats (F := Ideal) m 0 c).arrAt 3 cfg0.N := Pipeline.withArrays_arr spec0 launch0.win.arr_inj c _ _ 3
  exact congrArg unlay h

/-! ## From blocks to the array -/

/-- What the body leaves in the output block, at (f, n): the spread over k of the patch block at (k, n) plus the weight
    block at (f, k), plus the bias block at (f, 0). -/
theorem blockOut_apply (x0 : Vec Ideal S288x128 .f32) (x1 : Vec Ideal S64x288 .f32) (x2 : Vec Ideal S64x1 .f32) (f : Fin 64) (n : Fin 128) :
    blockOut x0 x1 x2 (ix2 f n)
      = Cert.TropConv.spread (fun k : Fin 288 => x0 (ix2 k n) + x1 (ix2 f k)) + x2 (ix2 f (0 : Fin 1)) := by
  unfold blockOut
  rw [pay2_apply, rowsOut_apply, pay1_apply]
  rfl

/-- The grid has 58 points. -/
theorem point_lt (t : Fin cfg0.N) : t.val < 58 := t.isLt.trans_eq N_0

/-- The index maps, decided once over the grid: at point t the patch window is at block (0, t), the weight and the bias
    windows at block (0, 0), the output window at block (0, t). -/
theorem index_facts : ∀ t : Fin cfg0.N,
    (win0_0.index t (0 : Fin 2) = 0 ∧ win0_0.index t (1 : Fin 2) = t.val)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = t.val) :=
  (by decide +kernel : ∀ t : Fin grid0.N, _)

/-- The patch window's block at point t is columns 128 t … 128 t + 127 of its array. -/
theorem iblk0_apply (t : Fin cfg0.N) (k : Fin 288) (n : Fin 128) (r : Fin 7424) (hr : r.val = t.val * 128 + n.val) :
    (iblk m c 0 t : Vec Ideal S288x128 .f32) (ix2 k n) = (V m c main_v15 : S288x7424.Idx → Ideal .f32) (ix2 k r) := by
  obtain ⟨⟨e0, e1⟩, -⟩ := index_facts t
  unfold iblk
  rw [View.read_apply]
  show V m c main_v15 _ = V m c main_v15 _
  congr 1
  funext a
  apply Fin.ext
  match a with
  | ⟨0, _⟩ => show win0_0.index t (0 : Fin 2) * 288 + 1 * k.val = k.val; rw [e0]; omega
  | ⟨1, _⟩ => show win0_0.index t (1 : Fin 2) * 128 + 1 * n.val = r.val; rw [e1, hr]; omega

/-- The weight window's block is its whole array at every point. -/
theorem iblk1_apply (t : Fin cfg0.N) (f : Fin 64) (k : Fin 288) :
    (iblk m c 1 t : Vec Ideal S64x288 .f32) (ix2 f k) = (V m c main_v13 : S64x288.Idx → Ideal .f32) (ix2 f k) := by
  obtain ⟨-, ⟨e0, e1⟩, -⟩ := index_facts t
  unfold iblk
  rw [View.read_apply]
  show V m c main_v13 _ = V m c main_v13 _
  congr 1
  funext a
  apply Fin.ext
  match a with
  | ⟨0, _⟩ => show win0_1.index t (0 : Fin 2) * 64 + 1 * f.val = f.val; rw [e0]; omega
  | ⟨1, _⟩ => show win0_1.index t (1 : Fin 2) * 288 + 1 * k.val = k.val; rw [e1]; omega

/-- The bias window's block is its whole array at every point. -/
theorem iblk2_apply (t : Fin cfg0.N) (f : Fin 64) :
    (iblk m c 2 t : Vec Ideal S64x1 .f32) (ix2 f (0 : Fin 1)) = (V m c main_v14 : S64x1.Idx → Ideal .f32) (ix2 f (0 : Fin 1)) := by
  obtain ⟨-, -, ⟨e0, e1⟩, -⟩ := index_facts t
  unfold iblk
  rw [View.read_apply]
  show V m c main_v14 _ = V m c main_v14 _
  congr 1
  funext a
  apply Fin.ext
  match a with
  | ⟨0, _⟩ => show win0_2.index t (0 : Fin 2) * 64 + 1 * f.val = f.val; rw [e0]; omega
  | ⟨1, _⟩ => show win0_2.index t (1 : Fin 2) * 1 + 1 * 0 = 0; rw [e1]

/-- What the body leaves at point t, at (f, n), is entry (f, 128 t + n) of the output function. -/
theorem outAt_apply (t : Fin cfg0.N) (f : Fin 64) (n : Fin 128) (r : Fin 7424) (hr : r.val = t.val * 128 + n.val) :
    outAt m c t (ix2 f n) = outArr m c (ix2 f r) := by
  unfold outAt outArr
  refine (blockOut_apply (iblk m c 0 t) (iblk m c 1 t) (iblk m c 2 t) f n).trans ?_
  rw [outOf_apply]
  exact congrArg₂ (· + ·)
    (congrArg Cert.TropConv.spread (funext fun k => congrArg₂ (· + ·) (iblk0_apply m c t k n r hr) (iblk1_apply m c t f k)))
    (iblk2_apply m c t f)

/-- Entry (f, n) of the output window's block at point t sits in the array at (f, 128 t + n). -/
theorem out_emb (t : Fin cfg0.N) (f : Fin 64) (n : Fin 128) (r : Fin 7424) (hr : r.val = t.val * 128 + n.val) :
    (((cfg0.win 3).blk t).view.emb (ix2 f n) : S64x7424.Idx) = ix2 f r := by
  obtain ⟨-, -, -, e0, e1⟩ := index_facts t
  funext a
  apply Fin.ext
  match a with
  | ⟨0, _⟩ => show win0_3.index t (0 : Fin 2) * 64 + 1 * f.val = f.val; rw [e0]; omega
  | ⟨1, _⟩ => show win0_3.index t (1 : Fin 2) * 128 + 1 * n.val = r.val; rw [e1, hr]; omega

/-- What point t writes back is block t of the output function. -/
theorem flushed_eq (t : Fin cfg0.N) :
    (dats (F := Ideal) m 0 c).flushed 3 t = ((cfg0.win 3).blk t).view.read (Elt Ideal) (outArr m c) := by
  show (cfg0.win 3).cut (grid0.coords t) ((dats (F := Ideal) m 0 c).after 3 t) = _
  rw [after0_3]
  funext y
  obtain ⟨f, n, rfl⟩ : ∃ (f : Fin 64) (n : Fin 128), y = ix2 f n := ⟨y 0, y 1, eq_ix2 y⟩
  have hN := point_lt t
  show outAt m c t (ix2 f n) = outArr m c (((cfg0.win 3).blk t).view.emb (ix2 f n))
  exact (outAt_apply m c t f n ⟨t.val * 128 + n.val, by omega⟩ rfl).trans
    (congrArg (outArr m c) (out_emb t f n ⟨t.val * 128 + n.val, by omega⟩ rfl).symm)

/-- An index of the array is in point t's block iff each coordinate is in the block's range on its axis. -/
theorem mem_blk (t : Fin cfg0.N) (i : S64x7424.Idx) :
    i ∈ ((cfg0.win 3).blk t).view.set ↔ ∀ a : Fin 2, win0_3.index t a * S64x128.size a ≤ (i a).val ∧ (i a).val < win0_3.index t a * S64x128.size a + S64x128.size a := by
  show i ∈ ((View.whole main_v16).slice (win0_3.rect t)).set ↔ _
  rw [View.set_slice_whole, Rect.mem_set_unit]
  exact Iff.rfl

/-- Every index of the array is in some point's block: column r is in the block of point r / 128. -/
theorem cover (i : S64x7424.Idx) : ∃ t : Fin cfg0.N, (cfg0.win 3).flush t = true ∧ i ∈ ((cfg0.win 3).blk t).view.set := by
  have h0 : (i 0).val < 64 := (i 0).isLt
  have h1 : (i 1).val < 7424 := (i 1).isLt
  obtain ⟨t, ht⟩ : ∃ t : Fin cfg0.N, t.val = (i 1).val / 128 :=
    ⟨⟨(i 1).val / 128, by rw [show cfg0.N = 58 from N_0]; omega⟩, rfl⟩
  obtain ⟨-, -, -, e0, e1⟩ := index_facts t
  refine ⟨t, flush0_3 t, ?_⟩
  rw [mem_blk]
  intro a
  match a with
  | ⟨0, _⟩ => show win0_3.index t (0 : Fin 2) * 64 ≤ (i 0).val ∧ (i 0).val < win0_3.index t (0 : Fin 2) * 64 + 64; rw [e0]; omega
  | ⟨1, _⟩ => show win0_3.index t (1 : Fin 2) * 128 ≤ (i 1).val ∧ (i 1).val < win0_3.index t (1 : Fin 2) * 128 + 128; rw [e1, ht]; omega

/-- the output array after the region is that function: block t of it is what the body left at point t, and the 58 blocks cover the array -/
theorem final_out : (dats (F := Ideal) m 0 c).arrAt 3 cfg0.N = outArr m c :=
  (dats (F := Ideal) m 0 c).arrAt_eq_of_cover 3 (outArr m c) (fun t _ => flushed_eq m c t) cover

/-- the kernel program's result array is the specification's tropical convolution of the patch tensor, the reshaped weights and the bias -/
theorem kernel_result : (Pipeline.afterTail₀ cfgs (dats (F := Ideal) m) 0 (V0 m) [hostOps1] c main_v19 : S8x30x30x64.Idx → Ideal .f32)
    = Cert.TropConv.result (patches (m ((c : Thread nD τ).loc main_arg0))) (weights (m ((c : Thread nD τ).loc main_arg1))) (m ((c : Thread nD τ).loc main_arg2)) := by
  rw [tail_result, final_out]
  funext y
  obtain ⟨b, i, j, f, rfl⟩ : ∃ (b : Fin 8) (i j : Fin 30) (f : Fin 64), y = ix4 b i j f := ⟨y 0, y 1, y 2, y 3, eq_ix4 y⟩
  rw [unlay_apply, Cert.TropConv.result_apply]
  unfold outArr Cert.TropConv.entry Cert.TropConv.shiftedRow
  rw [outOf_apply]
  exact congrArg₂ (· + ·)
    (congrArg Cert.TropConv.spread (funext fun k => congrArg₂ (· + ·) (V_patchesT m c b i j k) (V_weightsT m c f k)))
    (V_biasCol m c f)

end Cert.KernelIdeal.Final

end
-- ==== Proof.RefValue.lean ====
/-
  The reference's result, read index by index, is the tropical convolution of the specification.
-/
import proofs.«132573_j8091718386441_2_alg».proof.Proof.Gen.ReferenceIdeal.Run
import proofs.«132573_j8091718386441_2_alg».proof.Proof.Gen.ReferenceIdeal.Read
import proofs.«132573_j8091718386441_2_alg».proof.Proof.Spec
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- The bias, broadcast along the batch and the two positions, read at (b, i, j, f) is the bias at f. -/
theorem bias_read (x2 : FVec Ideal S64 .f32) (b : Fin 8) (i j : Fin 30) (f : Fin 64) :
    val_main_v20 (F := Ideal) x2 (ix4 b i j f) = x2 (ix1 f) := by
  rw [val_main_v20_apply, val_main_v19_apply]
  exact congrArg x2 (funext fun a => Fin.ext (by match a with | ⟨0, _⟩ => rfl))

/-- Removing axis 3 of the rank-5 array of shifted entries leaves the result's shape. -/
theorem reduces : Shape.Reduces S8x30x30x288x64 [3] S8x30x30x64 := by decide

/-- The index over (b, i, j, f) with coordinate k on the removed axis is (b, i, j, k, f). -/
theorem lift_ix (b : Fin 8) (i j : Fin 30) (f : Fin 64) (k : Fin 288) :
    Shape.Reduces.lift reduces (ix4 b i j f) k = ix5 b i j k f := by
  funext c; apply Fin.ext
  fin_cases c <;> rfl

/-- A reduction over axis 3 by a commutative and associative operation, at (b, i, j, f), folds the operation from
    the start value over the 288 entries (b, i, j, k, f). -/
theorem reduce_at (op : Ideal .f32 → Ideal .f32 → Ideal .f32) [Std.Commutative op] [Std.Associative op]
    (x : FVec Ideal S8x30x30x288x64 .f32) (init : FVec Ideal S_ .f32) (b : Fin 8) (i j : Fin 30) (f : Fin 64) :
    Host.reduce op x init reducesTo_S8x30x30x288x64_S8x30x30x64_d3 h_S_ (ix4 b i j f)
      = (Finset.univ : Finset (Fin 288)).fold op (init (Shape.Idx.first h_S_)) (fun k => x (ix5 b i j k f)) := by
  rw [Host.reduce_eq_fold_single op x init reducesTo_S8x30x30x288x64_S8x30x30x64_d3 reduces h_S_]
  exact congrArg (fun r : Fin 288 → Ideal .f32 =>
      Finset.fold op (init (Shape.Idx.first h_S_)) r (Finset.univ : Finset (Fin 288)))
    (funext fun k => congrArg x (lift_ix b i j f k))

/-- The sum array at (b, i, j, k, f): patch entry k of position (b, i, j) plus weight (k, f). -/
theorem sum_read (x0 : FVec Ideal S8x32x32x32 .f32) (x1 : FVec Ideal S1x1x1x288x64 .f32)
    (b : Fin 8) (i j : Fin 30) (f : Fin 64) (k : Fin 288) :
    val_main_v15 (F := Ideal) x0 x1 (ix5 b i j k f)
      = val_main_v9 (F := Ideal) x0 (ix4 b i j k) + val_main_v11 (F := Ideal) x1 (ix2 k f) := by
  rw [val_main_v15_apply, val_main_v13_apply, val_main_v10_apply, val_main_v14_apply, val_main_v12_apply,
    Ideal.addf_def]
  have e0 : idx_main_v10 (idx_main_v13 (ix5 b i j k f)) = ix4 b i j k := funext fun a => Fin.ext (by
    match a with | ⟨0, _⟩ => rfl | ⟨1, _⟩ => rfl | ⟨2, _⟩ => rfl | ⟨3, _⟩ => rfl)
  have e1 : idx_main_v12 (idx_main_v14 (ix5 b i j k f)) = ix2 k f := funext fun a => Fin.ext (by
    match a with | ⟨0, _⟩ => rfl | ⟨1, _⟩ => rfl)
  rw [e0, e1]

/-- The 288 entries of the sum array over (b, i, j, f) are the specification's shifted row. -/
theorem row_fun (x0 : FVec Ideal S8x32x32x32 .f32) (x1 : FVec Ideal S1x1x1x288x64 .f32)
    (b : Fin 8) (i j : Fin 30) (f : Fin 64) :
    (fun k : Fin 288 => val_main_v15 (F := Ideal) x0 x1 (ix5 b i j k f))
      = Cert.TropConv.shiftedRow (val_main_v9 (F := Ideal) x0) (val_main_v11 (F := Ideal) x1) b i j f := by
  funext k
  rw [sum_read]
  rfl

/-- The maximum over the removed axis at (b, i, j, f) is the running maximum of the shifted row. -/
theorem max_read (x0 : FVec Ideal S8x32x32x32 .f32) (x1 : FVec Ideal S1x1x1x288x64 .f32)
    (b : Fin 8) (i j : Fin 30) (f : Fin 64) :
    val_main_v16 (F := Ideal) x0 x1 (ix4 b i j f)
      = (Finset.univ : Finset (Fin 288)).fold max Cert.TropConv.maxStart
          (Cert.TropConv.shiftedRow (val_main_v9 (F := Ideal) x0) (val_main_v11 (F := Ideal) x1) b i j f) := by
  have h := reduce_at FloatOps.maximumf (val_main_v15 (F := Ideal) x0 x1) (val_main_cst (F := Ideal)) b i j f
  rw [val_main_cst_apply, Ideal.ofBits_def, row_fun] at h
  exact h

/-- The minimum over the removed axis at (b, i, j, f) is the running minimum of the shifted row. -/
theorem min_read (x0 : FVec Ideal S8x32x32x32 .f32) (x1 : FVec Ideal S1x1x1x288x64 .f32)
    (b : Fin 8) (i j : Fin 30) (f : Fin 64) :
    val_main_v17 (F := Ideal) x0 x1 (ix4 b i j f)
      = (Finset.univ : Finset (Fin 288)).fold min Cert.TropConv.minStart
          (Cert.TropConv.shiftedRow (val_main_v9 (F := Ideal) x0) (val_main_v11 (F := Ideal) x1) b i j f) := by
  have h := reduce_at FloatOps.minimumf (val_main_v15 (F := Ideal) x0 x1) (val_main_cst_0 (F := Ideal)) b i j f
  rw [val_main_cst_0_apply, Ideal.ofBits_def, row_fun] at h
  exact h

/-- The reference's result is the specification's tropical convolution of the patch tensor, the reshaped
    weights and the bias. -/
theorem ref_is_result (x0 : FVec Ideal S8x32x32x32 .f32) (x1 : FVec Ideal S1x1x1x288x64 .f32) (x2 : FVec Ideal S64 .f32) :
    val_main_v21 (F := Ideal) x0 x1 x2
      = Cert.TropConv.result (val_main_v9 (F := Ideal) x0) (val_main_v11 (F := Ideal) x1) x2 := by
  funext y
  obtain ⟨b, i, j, f, rfl⟩ : ∃ (b : Fin 8) (i j : Fin 30) (f : Fin 64), y = ix4 b i j f :=
    ⟨y 0, y 1, y 2, y 3, eq_ix4 y⟩
  rw [Cert.TropConv.result_apply, val_main_v21_apply, val_main_v18_apply, Ideal.addf_def, Ideal.subf_def,
    max_read, min_read, bias_read]
  rfl

end Cert.ReferenceIdeal.RefValue

end
-- ==== Proof.lean ====
/-
  A tropical convolution kernel against its plain reference: for every output position and feature both programs
  return the spread (the largest less the smallest) of the 288 numbers "patch entry plus weight", plus the feature's
  bias.

  The kernel program extracts the 3×3 patches on the host (nine shifted windows of the input joined along the channel
  axis), lays them out as a [288, 7200] matrix padded with zeros to 7424 columns, and runs one grid of 58 points: at
  point t the body holds columns 128·t … 128·t+127 of that matrix, the whole [64, 288] weight matrix and the [64, 1]
  bias column, loops over the 64 features storing one row of spreads per trip, and finally adds the bias column to the
  block. After the grid the padding columns are sliced off and the [64, 7200] result is transposed and reshaped to
  [8, 30, 30, 64]. The reference extracts the same patches by the same nine slices and the same join, broadcasts patch
  and weight to [8, 30, 30, 288, 64], adds, reduces by maximum and by minimum over the patch axis, subtracts, and adds
  the bias.

  At the ideal instance both are the specification's function of the patch tensor, the reshaped weights and the bias:
  the kernel's lane-wise running maximum over the 288 sublanes and the reference's reduction over the patch axis are the
  same fold of max from the same start value over the same 288 numbers, likewise for min, and subtraction and addition
  are applied to the same numbers. No step uses that an entry is finite, so the precondition is never opened.

  The three frames: each kernel program runs to the end by the pipeline's launch theorem over the body's triple (the loop
  passed by its invariant), with the host operations before and after the region, and no host operation writes an
  argument array; the reference's frame is its run with the result dropped. The idealization rewrote nothing, so the
  preservation claim is trivial.
-/
import proofs.«132573_j8091718386441_2_alg».proof.Defs
import proofs.«132573_j8091718386441_2_alg».proof.Proof.Gen.Kernel
import proofs.«132573_j8091718386441_2_alg».proof.Proof.Gen.KernelIdeal
import proofs.«132573_j8091718386441_2_alg».proof.Proof.Gen.ReferenceIdeal
import proofs.«132573_j8091718386441_2_alg».proof.Proof.Gen.Pre_finite_inputs
import proofs.«132573_j8091718386441_2_alg».proof.Proof.Gen.ReferenceIdeal.Run
import proofs.«132573_j8091718386441_2_alg».proof.Proof.Gen.ReferenceIdeal.Read
import proofs.«132573_j8091718386441_2_alg».proof.Proof.BitsFrame
import proofs.«132573_j8091718386441_2_alg».proof.Proof.IdealFrame
import proofs.«132573_j8091718386441_2_alg».proof.Proof.IdealFinal
import proofs.«132573_j8091718386441_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel (hKernel := Cert.Kernel.Gen.facts) (hPre_finite_inputs := Cert.Pre_finite_inputs.Gen.facts) :=
  fun m ρ _ => Cert.Kernel.Hand.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The reference's patch tensor and reshaped weights are the kernel program's: the same nine slices joined the same
    way, and the same reshape. -/
theorem patches_eq (x0 : FVec Ideal Cert.KernelIdeal.S8x32x32x32 .f32) :
    Cert.ReferenceIdeal.Read.val_main_v9 (F := Ideal) x0 = Cert.KernelIdeal.HostValue.patches x0 := rfl
theorem weights_eq (x1 : FVec Ideal Cert.KernelIdeal.S1x1x1x288x64 .f32) :
    Cert.ReferenceIdeal.Read.val_main_v11 (F := Ideal) x1 = Cert.KernelIdeal.HostValue.weights x1 := rfl

/-- At the ideal instance both programs end with the specification's tropical convolution of the patch tensor, the
    reshaped weights and the bias, and with their arguments unchanged. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.TropConv.result (Cert.KernelIdeal.HostValue.patches (m ((c.tc : Thread Cert.KernelIdeal.nD Cert.KernelIdeal.τ).loc Cert.KernelIdeal.main_arg0)))
      (Cert.KernelIdeal.HostValue.weights (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)), ?_, ?_⟩
  · refine (θ_run Cert.KernelIdeal.defs _ _).mono (fun _ h c => ⟨?_, ?_, ?_, ?_⟩) (Cert.KernelIdeal.Hand.run_main (F := Ideal) m ρ)
    · exact ((h c).2 Cert.KernelIdeal.main_v19 (Pipeline.mem_restRefs_of Cert.KernelIdeal.main_v19 (by decide) (by decide))).trans
        (Cert.KernelIdeal.Final.kernel_result m c)
    · exact ((h c).2 Cert.KernelIdeal.main_arg0 (Pipeline.mem_restRefs_of Cert.KernelIdeal.main_arg0 (by decide) (by decide))).trans
        (Cert.KernelIdeal.Hand.W_of_arg m _ c _ (.inl rfl))
    · exact ((h c).2 Cert.KernelIdeal.main_arg1 (Pipeline.mem_restRefs_of Cert.KernelIdeal.main_arg1 (by decide) (by decide))).trans
        (Cert.KernelIdeal.Hand.W_of_arg m _ c _ (.inr (.inl rfl)))
    · exact ((h c).2 Cert.KernelIdeal.main_arg2 (Pipeline.mem_restRefs_of Cert.KernelIdeal.main_arg2 (by decide) (by decide))).trans
        (Cert.KernelIdeal.Hand.W_of_arg m _ c _ (.inr (.inr rfl)))
  · refine (θ_run Cert.ReferenceIdeal.defs _ _).mono (fun _ h c => ⟨?_, (h c).2⟩) (Cert.ReferenceIdeal.Value.run (F := Ideal) m' ρ')
    rw [(h c).1, Cert.ReferenceIdeal.Read.val_main_v21_eq, Cert.ReferenceIdeal.RefValue.ref_is_result, (hagree c).1, (hagree c).2.1, (hagree c).2.2,
      patches_eq, weights_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
